-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x128 .f32) (main_arg13 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S20000x128 .f32) (main_arg1 : FVec F S640000x128 .f32) (main_arg2 : IVec S640000 32) (main_arg3 : IVec S640000 32) (main_arg4 : IVec S640000 32) (main_arg5 : FVec F S128x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S20000x128 : Shape := ⟨2, ![20000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S8000x128 : Shape := ⟨2, ![8000, 128]⟩
abbrev S_ : Shape := ⟨0, ![]⟩
abbrev S640000x1 : Shape := ⟨2, ![640000, 1]⟩
abbrev S2000x128 : Shape := ⟨2, ![2000, 128]⟩

abbrev nBuf : Space → Nat
  | .hbm => 40
  | .vmem => 25
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S640000x128, .f32⟩
  | .hbm, ⟨17, _⟩ => ⟨S_, .f32⟩
  | .hbm, ⟨18, _⟩ => ⟨S640000x128, .f32⟩
  | .hbm, ⟨19, _⟩ => ⟨S640000x1, .i32⟩
  | .hbm, ⟨20, _⟩ => ⟨S640000x128, .f32⟩
  | .hbm, ⟨21, _⟩ => ⟨S20000x128, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S20000x128, .f32⟩
  | .hbm, ⟨34, _⟩ => ⟨S640000x1, .i32⟩
  | .hbm, ⟨35, _⟩ => ⟨S20000x128, .f32⟩
  | .hbm, ⟨36, _⟩ => ⟨S1x128, .f32⟩
  | .hbm, ⟨37, _⟩ => ⟨S1x128, .f32⟩
  | .hbm, ⟨38, _⟩ => ⟨S20000x128, .f32⟩
  | .hbm, ⟨39, _⟩ => ⟨S20000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S640000x128 : S_.BroadcastsInDim S640000x128 (![] : Fin 0 → Fin S640000x128.rank)
  bcast_S640000_S640000x1_0 : S640000.BroadcastsInDim S640000x1 (![0] : Fin 1 → Fin S640000x1.rank)
  inb_S2000x128_S2000x128_0_0 : ∀ a, (![0, 0] : Fin 2 → Nat) a + S2000x128.size a ≤ S2000x128.size a
  h_S2000x128 : 0 < S2000x128.numel
  bcast_S_S640000 : S_.BroadcastsInDim S640000 (![] : Fin 0 → Fin S640000.rank)
  bcast_S_S20000x128 : S_.BroadcastsInDim S20000x128 (![] : Fin 0 → Fin S20000x128.rank)
  shapeCasts_S2000x128_S2000x128 : S2000x128.ShapeCasts S2000x128
  broadcasts_S1x128_S2000x128 : S1x128.Broadcasts S2000x128
  dot_S8000x128_S128x128_S8000x128_1_0_0_1_n_n_wf : DotDims.WF S8000x128 S128x128 S8000x128 [1] [0] [0] [1] [] []
  scatter_S640000x128_S640000x1_S640000x128_1_0_0_1_wf : ScatterDims.WF S640000x128 S640000x1 S640000x128 [1] [0] [0] 1
  dot_S2000x128_S128x128_S2000x128_1_0_0_1_n_n_wf : DotDims.WF S2000x128 S128x128 S2000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S640000x128.size a
  hwx0_5 : ∀ i : grid0.Coords, EltTy.bits .f32 = 32 ∨ (Rect.block (s := S640000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S20000x128.size a
  hwx1_2 : ∀ i : grid1.Coords, EltTy.bits .f32 = 32 ∨ (Rect.block (s := S20000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S20000x128.size a
  hwx2_6 : ∀ i : grid2.Coords, EltTy.bits .f32 = 32 ∨ (Rect.block (s := S20000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S20000x128.size a
  hwx2_7 : ∀ i : grid2.Coords, EltTy.bits .f32 = 32 ∨ (Rect.block (s := S20000x128) S2000x128.size (cc2_transform_7 i) (hinb2_7 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S640000x128_S640000x1_S640000x128_1_0_0_1 : ScatterDims S640000x128 S640000x1 S640000x128 where
  updateWindowDims := [1]
  insertedWindowDims := [0]
  scatterDimsToOperandDims := [0]
  indexVectorDim := 1
  wf := scatter_S640000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v20_1) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S_ : Shape := ⟨0, ![]⟩
abbrev S640000x1 : Shape := ⟨2, ![640000, 1]⟩

abbrev nBuf : Space → Nat
  | .hbm => 101
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S640000x128, .f32⟩
  | .hbm, ⟨15, _⟩ => ⟨S1x128, .f32⟩
  | .hbm, ⟨16, _⟩ => ⟨S640000x128, .f32⟩
  | .hbm, ⟨17, _⟩ => ⟨S640000x128, .f32⟩
  | .hbm, ⟨18, _⟩ => ⟨S_, .f32⟩
  | .hbm, ⟨19, _⟩ => ⟨S640000x128, .f32⟩
  | .hbm, ⟨20, _⟩ => ⟨S640000x128, .f32⟩
  | .hbm, ⟨21, _⟩ => ⟨S640000x128, .f32⟩
  | .hbm, ⟨22, _⟩ => ⟨S640000x128, .f32⟩
  | .hbm, ⟨23, _⟩ => ⟨S640000x128, .i1⟩
  | .hbm, ⟨24, _⟩ => ⟨S640000x128, .f32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S640000x128, .i1⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S640000x128, .f32⟩
  | .hbm, ⟨53, _⟩ => ⟨S_, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S640000x128, .f32⟩
  | .hbm, ⟨58, _⟩ => ⟨S640000x1, .i32⟩
  | .hbm, ⟨59, _⟩ => ⟨S640000x128, .f32⟩
  | .hbm, ⟨60, _⟩ => ⟨S20000x128, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x128, .f32⟩
  | .hbm, ⟨70, _⟩ => ⟨S640000x128, .f32⟩
  | .hbm, ⟨71, _⟩ => ⟨S_, .f32⟩
  | .hbm, ⟨72, _⟩ => ⟨S20000x128, .f32⟩
  | .hbm, ⟨73, _⟩ => ⟨S640000x1, .i32⟩
  | .hbm, ⟨74, _⟩ => ⟨S20000x128, .f32⟩
  | .hbm, ⟨75, _⟩ => ⟨S20000x128, .f32⟩
  | .hbm, ⟨76, _⟩ => ⟨S1x128, .f32⟩
  | .hbm, ⟨77, _⟩ => ⟨S20000x128, .f32⟩
  | .hbm, ⟨78, _⟩ => ⟨S20000x128, .f32⟩
  | .hbm, ⟨79, _⟩ => ⟨S_, .f32⟩
  | .hbm, ⟨80, _⟩ => ⟨S20000x128, .f32⟩
  | .hbm, ⟨81, _⟩ => ⟨S20000x128, .f32⟩
  | .hbm, ⟨82, _⟩ => ⟨S20000x128, .f32⟩
  | .hbm, ⟨83, _⟩ => ⟨S20000x128, .f32⟩
  | .hbm, ⟨84, _⟩ => ⟨S20000x128, .i1⟩
  | .hbm, ⟨85, _⟩ => ⟨S20000x128, .f32⟩
  | .hbm, ⟨86, _⟩ => ⟨S20000x128, .f32⟩
  | .hbm, ⟨87, _⟩ => ⟨S20000x128, .f32⟩
  | .hbm, ⟨88, _⟩ => ⟨S20000x128, .f32⟩
  | .hbm, ⟨89, _⟩ => ⟨S20000x128, .f32⟩
  | .hbm, ⟨90, _⟩ => ⟨S20000x128, .f32⟩
  | .hbm, ⟨91, _⟩ => ⟨S20000x128, .f32⟩
  | .hbm, ⟨92, _⟩ => ⟨S20000x128, .f32⟩
  | .hbm, ⟨93, _⟩ => ⟨S_, .f32⟩
  | .hbm, ⟨94, _⟩ => ⟨S20000x128, .f32⟩
  | .hbm, ⟨95, _⟩ => ⟨S20000x128, .f32⟩
  | .hbm, ⟨96, _⟩ => ⟨S20000x128, .f32⟩
  | .hbm, ⟨97, _⟩ => ⟨S1x128, .f32⟩
  | .hbm, ⟨98, _⟩ => ⟨S20000x128, .f32⟩
  | .hbm, ⟨99, _⟩ => ⟨S20000x128, .f32⟩
  | .hbm, ⟨100, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_v11 : Ref sig .tc := ⟨.hbm, 52, rfl⟩
abbrev main_cst_0 : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_c : Ref sig .tc := ⟨.hbm, 61, rfl⟩
abbrev main_v18 : Ref sig .tc := ⟨.hbm, 62, rfl⟩
abbrev main_v19 : Ref sig .tc := ⟨.hbm, 63, rfl⟩
abbrev main_c_2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_3 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_v33 : Ref sig .tc := ⟨.hbm, 92, rfl⟩
abbrev main_cst_4 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  dot_S640000x128_S128x128_S640000x128_1_0_0_1_n_n_wf : DotDims.WF S640000x128 S128x128 S640000x128 [1] [0] [0] [1] [] []
  scatter_S640000x128_S640000x1_S640000x128_1_0_0_1_wf : ScatterDims.WF S640000x128 S640000x1 S640000x128 [1] [0] [0] 1
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S640000x128_S640000x1_S640000x128_1_0_0_1 : ScatterDims S640000x128 S640000x1 S640000x128 where
  updateWindowDims := [1]
  insertedWindowDims := [0]
  scatterDimsToOperandDims := [0]
  indexVectorDim := 1
  wf := scatter_S640000x128_S640000x1_S640000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.KRun.lean ====
/-
  The idealized kernel's run, with the contents of every buffer at the return.

  The program is three grid regions among stretches of host operations. Its run is the launch of those six
  segments one after the other; the buffer contents at each boundary are a fold through the program: a stretch of
  host operations applies them in order, a region replaces each of its arrays by what its write-backs leave. The
  last boundary's contents are the final memory at every buffer that outlives the call, the two results included.
-/
import proofs.«112420_j45037027066141_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from any memory with zero counters terminates, nothing faulting, and every buffer
    that outlives the call ends at the last boundary's contents. -/
theorem run_contents : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.KernelIdeal.Results

end
-- ==== Proof.Spec.lean ====
/-
  The interaction block, row by row, on the extended reals.

  Every dense stage of the block acts on one row at a time: an output row is a function of the same row of its
  row-indexed operands and of the whole weight matrices. This module states those row functions once, with no
  program in sight:

    ssp z        = max z 0 + log1p (exp (-|z - 0|)) - w      (the shifted softplus, w the single-precision word of
                   log 2, kept as a word: both programs use the same one), behind the guard "z - 0 differs from
                   itself", which never fires on the extended reals;
    dense r W b  = (sum over k of r k * W (k, q)) + b q        (one row through a weight matrix and a bias);
    filterRow    = ssp (dense (ssp (dense r W1 b1)) W2 b2)     (the filter network);
    projRow      = sum over k of r k * W (k, q)                (the projection of the atom features);
    updRow       = dense (ssp (dense a Wo bo)) Wd bd           (the update from an aggregated row a).

  The whole-array forms read row (i 0) of the operand and evaluate the row function at column (i 1).
-/
import Idealize.ShloMosaic.PureOps.Ideal.Laws
import Idealize.ShloMosaic.Lib.ValueIdx

noncomputable section

namespace Cert.Interaction

open Idealize.ShloMosaic Idealize.ShloMosaic.ValueIdx

/-- A 128 x 128 weight matrix. -/
abbrev Mat := (⟨2, ![128, 128]⟩ : Shape).Idx → EReal
/-- A bias of length 128. -/
abbrev Bias := (⟨1, ![128]⟩ : Shape).Idx → EReal
/-- An array of n rows of 128 features. -/
abbrev Rows (n : Nat) := (⟨2, ![n, 128]⟩ : Shape).Idx → EReal

/-- The shifted softplus as the reference spells it: the select on "d differs from d" (d = z - 0) between z + 0 and
    max z 0 + log1p (exp (-|d|)), minus the word of log 2. -/
def ssp (z : EReal) : EReal :=
  Scalar.select (Ideal.cmp .une (z - Ideal.ofBits .f32 0x00000000#32) (z - Ideal.ofBits .f32 0x00000000#32))
      (z + Ideal.ofBits .f32 0x00000000#32)
      (max z (Ideal.ofBits .f32 0x00000000#32)
        + Ideal.log1p (Ideal.exp (-(max (z - Ideal.ofBits .f32 0x00000000#32) (-(z - Ideal.ofBits .f32 0x00000000#32))))))
    - Ideal.ofBits .f32 0x3F317218#32

/-- The kernel writes the exponent as 0 - |d| and tests "d differs from d" with the ordered predicate: on the
    extended reals both are the reference's spelling, since 0 - y = -y and the two predicates are one. -/
theorem ssp_kernel_form (z : EReal) :
    Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - (max (z - Ideal.ofBits .f32 0x00000000#32) (-(z - Ideal.ofBits .f32 0x00000000#32))))))
      - Ideal.ofBits .f32 0x3F317218#32 = ssp z := by
  unfold ssp
  have h0 : ∀ y : EReal, Ideal.ofBits .f32 0x00000000#32 - y = -y := fun y => by
    rw [Ideal.ofBits_zero_f32, sub_eq_add_neg, zero_add]
  rw [h0]
  rfl

/-- One row through a weight matrix and a bias: entry q is (sum over k of r k * W (k, q)) + b q. -/
def dense (r : Fin 128 → EReal) (W : Mat) (b : Bias) (q : Fin 128) : EReal :=
  (∑ k : Fin 128, r k * W (ix2 k q)) + b (ix1 q)

/-- The filter network on one row of expanded distances. -/
def filterRow (r : Fin 128 → EReal) (W1 : Mat) (b1 : Bias) (W2 : Mat) (b2 : Bias) (q : Fin 128) : EReal :=
  ssp (dense (fun k => ssp (dense r W1 b1 k)) W2 b2 q)

/-- The projection of one row of atom features. -/
def projRow (r : Fin 128 → EReal) (W : Mat) (q : Fin 128) : EReal :=
  ∑ k : Fin 128, r k * W (ix2 k q)

/-- The update from one aggregated row. -/
def updRow (a : Fin 128 → EReal) (Wo : Mat) (bo : Bias) (Wd : Mat) (bd : Bias) (q : Fin 128) : EReal :=
  dense (fun k => ssp (dense a Wo bo k)) Wd bd q

/-- The filter network on every row. -/
def filterArr {n : Nat} (d : Rows n) (W1 : Mat) (b1 : Bias) (W2 : Mat) (b2 : Bias) : Rows n :=
  fun i => filterRow (fun k => d (ix2 (i 0) k)) W1 b1 W2 b2 (i 1)

/-- The projection of every row. -/
def projArr {n : Nat} (x : Rows n) (W : Mat) : Rows n :=
  fun i => projRow (fun k => x (ix2 (i 0) k)) W (i 1)

/-- The update of every row. -/
def updArr {n : Nat} (a : Rows n) (Wo : Mat) (bo : Bias) (Wd : Mat) (bd : Bias) : Rows n :=
  fun i => updRow (fun k => a (ix2 (i 0) k)) Wo bo Wd bd (i 1)

/-- The residual: the features plus the update. -/
def resArr {n : Nat} (x a : Rows n) (Wo : Mat) (bo : Bias) (Wd : Mat) (bd : Bias) : Rows n :=
  fun i => x i + updArr a Wo bo Wd bd i

end Cert.Interaction

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.Layers.lean ====
/-
  The kernel's two vector forms, read at an index.

  A kernel body of this block is built from two vector terms, for any number n of rows in the block:

    layerK a W b = (a times W into the zero accumulator) + (the 1 x 128 bias row b broadcast down the n rows),
    actK z       = the shifted softplus applied entry by entry, in the kernel's spelling.

  At entry (p, q) the first is the spec's dense of row p of a, and the second is the spec's ssp of the entry. The
  matrix product is read through a record of dimension numbers that contracts axis 1 of the n x 128 operand with
  axis 0 of the 128 x 128 one; the facts needed of such a record are collected in RowDot.
-/
import Idealize.ShloMosaic.PureOps.Ideal.Laws
import Idealize.ShloMosaic.Lib.ValueIdx
import Idealize.ShloMosaic.Lib.Pipeline.Value
import proofs.«112420_j45037027066141_1_alg».proof.Proof.Spec
import proofs.«112420_j45037027066141_1_alg».proof.Proof.LibMatmulRows

noncomputable section

namespace Cert.Interaction

open Idealize.ShloMosaic Idealize.ShloMosaic.ValueIdx

/-- n rows of 128 features. -/
abbrev SR (n : Nat) : Shape := ⟨2, ![n, 128]⟩
/-- A 128 x 128 matrix. -/
abbrev SM : Shape := ⟨2, ![128, 128]⟩
/-- A 1 x 128 row. -/
abbrev SB : Shape := ⟨2, ![1, 128]⟩

/-- What is needed of a record of dimension numbers for rows times a 128 x 128 matrix: it contracts axis 1 of the
    left operand with axis 0 of the right one over 128 positions, and the free axes are read off the output index. -/
structure RowDot {n : Nat} (d : DotDims (SR n) SM (SR n)) : Prop where
  hcl : d.lhsContracting = [1]
  hcr : d.rhsContracting = [0]
  hrk : d.contr.rank = 1
  hs : d.contr.size ⟨0, by omega⟩ = 128
  hl0 : ∀ i q, (d.lhsIdx i q 0).val = (i 0).val
  hr1 : ∀ i q, (d.rhsIdx i q 1).val = (i 1).val

/-- A 1 x 128 row, shape-cast to itself and broadcast down n rows, reads at (p, q) the row's entry q. -/
theorem bias_row {n : Nat} (hc : SB.ShapeCasts SB) (hb : SB.Broadcasts (SR n)) {α : Type} (b : SB.Idx → α)
    (p : Fin n) (q : Fin 128) :
    broadcastTo (SR n) (shapeCast SB b hc) hb (ix2 p q) = b (ix2 0 q) := by
  rw [shapeCast_self]
  exact broadcastTo_apply b hb (ix2 p q) (ix2 0 q) (fun a => by
    match a with
    | ⟨0, _⟩ => rfl
    | ⟨1, _⟩ => rfl)

/-- The kernel's pre-activation: rows times a matrix into the zero accumulator, plus the bias row broadcast. -/
def layerK {n : Nat} (d : DotDims (SR n) SM (SR n)) (hc : SB.ShapeCasts SB) (hb : SB.Broadcasts (SR n))
    {φ₁ φ₂ : FTy} (a : FVec Ideal (SR n) φ₁) (W : FVec Ideal SM φ₂) (b : FVec Ideal SB .f32) : FVec Ideal (SR n) .f32 :=
  addf (matmul d none a W (constant (F := Ideal) (SR n) .f32 0x00000000#32)) (broadcastTo (SR n) (shapeCast SB b hc) hb)

/-- The kernel's product with no bias. -/
def prodK {n : Nat} (d : DotDims (SR n) SM (SR n)) {φ₁ φ₂ : FTy} (a : FVec Ideal (SR n) φ₁) (W : FVec Ideal SM φ₂) :
    FVec Ideal (SR n) .f32 :=
  matmul d none a W (constant (F := Ideal) (SR n) .f32 0x00000000#32)

/-- The bias a 1 x 128 row stands for. -/
def rowBias (b : FVec Ideal SB .f32) : Bias := fun j => b (ix2 0 (j 0))

theorem prodK_apply {n : Nat} (d : DotDims (SR n) SM (SR n)) (hd : RowDot d) {φ₁ φ₂ : FTy}
    (a : FVec Ideal (SR n) φ₁) (W : FVec Ideal SM φ₂) (p : Fin n) (q : Fin 128) :
    prodK d a W (ix2 p q) = projRow (fun k => a (ix2 p k)) W q := by
  unfold prodK projRow
  exact MatmulRows.matmul_zero_apply d none hd.hcl hd.hcr hd.hrk hd.hs hd.hl0 hd.hr1 a W (ix2 p q)

theorem layerK_apply {n : Nat} (d : DotDims (SR n) SM (SR n)) (hd : RowDot d) (hc : SB.ShapeCasts SB)
    (hb : SB.Broadcasts (SR n)) {φ₁ φ₂ : FTy} (a : FVec Ideal (SR n) φ₁) (W : FVec Ideal SM φ₂) (b : FVec Ideal SB .f32)
    (p : Fin n) (q : Fin 128) :
    layerK d hc hb a W b (ix2 p q) = dense (fun k => a (ix2 p k)) W (rowBias b) q := by
  unfold layerK dense rowBias
  show FloatOps.matmul d none a W (constant (F := Ideal) (SR n) .f32 0x00000000#32) (ix2 p q)
      + broadcastTo (SR n) (shapeCast SB b hc) hb (ix2 p q) = _
  rw [MatmulRows.matmul_zero_apply d none hd.hcl hd.hcr hd.hrk hd.hs hd.hl0 hd.hr1 a W (ix2 p q), bias_row]
  rfl

/-- The kernel's shifted softplus on a vector. -/
def actK {s : Shape} (z : FVec Ideal s .f32) : FVec Ideal s .f32 :=
  subf
    (select
      (cmpf .one (subf z (broadcast s (Scalar.ofBits (F := Ideal) .f32 0x00000000#32)))
        (subf z (broadcast s (Scalar.ofBits (F := Ideal) .f32 0x00000000#32))))
      (addf z (broadcast s (Scalar.ofBits (F := Ideal) .f32 0x00000000#32)))
      (addf (maximumf z (broadcast s (Scalar.ofBits (F := Ideal) .f32 0x00000000#32)))
        (log1p (exp (subf (broadcast s (Scalar.ofBits (F := Ideal) .f32 0x00000000#32))
          (absf (subf z (broadcast s (Scalar.ofBits (F := Ideal) .f32 0x00000000#32)))))))))
    (broadcast s (Scalar.ofBits (F := Ideal) .f32 0x3F317218#32))

theorem actK_apply {s : Shape} (z : FVec Ideal s .f32) (i : s.Idx) : actK z i = ssp (z i) :=
  ssp_kernel_form (z i)

end Cert.Interaction

end
-- ==== Proof.KBlocks.lean ====
/-
  What each kernel body leaves in its output block, entry by entry.

  Over arbitrary contents of the input blocks (variables of the literal block shapes), entry (p, q) of the block
  a body stores is the spec's row function of row p of its row-indexed input blocks:

    the filter kernel    : filterRow of row p of the distance block;
    the projection kernel: projRow of row p of the feature block;
    the final kernel     : updRow of row p of the aggregate block (second output), and that plus entry (p, q) of the
                           feature block (first output).

  Each body's stored value is, by unfolding, a composition of the two vector forms of the layer module (casts to
  half precision are the identity on the extended reals, and a block shape-cast to its own shape is itself).
-/
import proofs.«112420_j45037027066141_1_alg».proof.Proof.Gen.KernelIdeal.Frame
import proofs.«112420_j45037027066141_1_alg».proof.Proof.Layers

noncomputable section

namespace Cert.Interaction.Blocks

open Idealize.ShloMosaic Idealize.ShloMosaic.ValueIdx Cert.Interaction
open Cert.KernelIdeal Cert.KernelIdeal.Gen

/-- The zero offsets of a whole-block rectangle, spelt as a function. -/
theorem hz : (![0, 0] : Fin 2 → Nat) = fun _ => 0 := funext fun a => by fin_cases a <;> rfl

/-- The filter kernel's dimension numbers contract a row with a column of the weight. -/
theorem rowDot8000 : RowDot (n := 8000) dot_S8000x128_S128x128_S8000x128_1_0_0_1_n_n where
  hcl := rfl
  hcr := rfl
  hrk := rfl
  hs := rfl
  hl0 := fun i q => by
    unfold DotDims.lhsIdx
    rw [dif_neg (show ¬(0 : Fin S8000x128.rank) ∈ dot_S8000x128_S128x128_S8000x128_1_0_0_1_n_n.lhsBatch by decide),
      dif_pos (show (0 : Fin S8000x128.rank) ∈ dot_S8000x128_S128x128_S8000x128_1_0_0_1_n_n.lhsNonContracting by decide)]
    rfl
  hr1 := fun i q => by
    unfold DotDims.rhsIdx
    rw [dif_neg (show ¬(1 : Fin S128x128.rank) ∈ dot_S8000x128_S128x128_S8000x128_1_0_0_1_n_n.rhsBatch by decide),
      dif_pos (show (1 : Fin S128x128.rank) ∈ dot_S8000x128_S128x128_S8000x128_1_0_0_1_n_n.rhsNonContracting by decide)]
    rfl

/-- The same for the two kernels over 2000-row blocks. -/
theorem rowDot2000 : RowDot (n := 2000) dot_S2000x128_S128x128_S2000x128_1_0_0_1_n_n where
  hcl := rfl
  hcr := rfl
  hrk := rfl
  hs := rfl
  hl0 := fun i q => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  hr1 := fun i q => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-! ## The filter kernel -/

/-- The stored value is the activation of the second layer of the activation of the first layer. -/
theorem filter_payload (x0 : Vec Ideal S8000x128 .f32) (x1 : Vec Ideal S128x128 .f32) (x2 : Vec Ideal S1x128 .f32)
    (x3 : Vec Ideal S128x128 .f32) (x4 : Vec Ideal S1x128 .f32) :
    k0_pay1 (F := Ideal) (k0_pay3 x0 x1 x2 x3 x4) (k0_pay5 x0 x1 x2 x3 x4) (k0_pay6 x0 x1 x2 x3 x4) (k0_pay7 x0 x1 x2 x3 x4) (k0_pay8 (F := Ideal))
      = actK (layerK (n := 8000) dot_S8000x128_S128x128_S8000x128_1_0_0_1_n_n shapeCasts_S1x128_S1x128 broadcasts_S1x128_S8000x128
          (truncf .bf16 (actK (layerK (n := 8000) dot_S8000x128_S128x128_S8000x128_1_0_0_1_n_n shapeCasts_S1x128_S1x128 broadcasts_S1x128_S8000x128
            (truncf .bf16 x0 bitsLt_bf16_f32) (truncf .bf16 x1 bitsLt_bf16_f32) x2)) bitsLt_bf16_f32)
          (truncf .bf16 x3 bitsLt_bf16_f32) x4) := rfl

theorem filter_block (x0 : Vec Ideal S8000x128 .f32) (x1 : Vec Ideal S128x128 .f32) (x2 : Vec Ideal S1x128 .f32)
    (x3 : Vec Ideal S128x128 .f32) (x4 : Vec Ideal S1x128 .f32) (p : Fin 8000) (q : Fin 128) :
    out0_5 (F := Ideal) x0 x1 x2 x3 x4 (ix2 p q)
      = filterRow (fun k => x0 (ix2 p k)) x1 (rowBias x2) x3 (rowBias x4) q := by
  unfold out0_5
  rw [View.canon_unit_zero hz]
  simp only [View.ld_unit_zero (S := S8000x128) hz, View.ld_unit_zero (S := S128x128) hz, View.ld_unit_zero (S := S1x128) hz]
  rw [filter_payload, actK_apply, layerK_apply _ rowDot8000]
  unfold filterRow
  refine congrArg ssp (congrArg (fun r => dense r _ _ q) (funext fun k => ?_))
  show actK (layerK (n := 8000) dot_S8000x128_S128x128_S8000x128_1_0_0_1_n_n shapeCasts_S1x128_S1x128 broadcasts_S1x128_S8000x128
      (truncf .bf16 x0 bitsLt_bf16_f32) (truncf .bf16 x1 bitsLt_bf16_f32) x2) (ix2 p k) = _
  rw [actK_apply, layerK_apply _ rowDot8000]
  rfl

/-! ## The projection kernel -/

theorem proj_payload (x0 : Vec Ideal S2000x128 .f32) (x1 : Vec Ideal S128x128 .f32) :
    k1_pay1 (F := Ideal) x0 x1
      = prodK (n := 2000) dot_S2000x128_S128x128_S2000x128_1_0_0_1_n_n (truncf .bf16 x0 bitsLt_bf16_f32) (truncf .bf16 x1 bitsLt_bf16_f32) := rfl

theorem proj_block (x0 : Vec Ideal S2000x128 .f32) (x1 : Vec Ideal S128x128 .f32) (p : Fin 2000) (q : Fin 128) :
    out1_2 (F := Ideal) x0 x1 (ix2 p q) = projRow (fun k => x0 (ix2 p k)) x1 q := by
  unfold out1_2
  rw [View.canon_unit_zero hz]
  simp only [View.ld_unit_zero (S := S2000x128) hz, View.ld_unit_zero (S := S128x128) hz]
  rw [proj_payload, prodK_apply _ rowDot2000]
  rfl

/-! ## The final kernel -/

theorem upd_payload (x0 : Vec Ideal S2000x128 .f32) (x2 : Vec Ideal S128x128 .f32) (x3 : Vec Ideal S1x128 .f32)
    (x4 : Vec Ideal S128x128 .f32) (x5 : Vec Ideal S1x128 .f32) :
    k2_pay1 (F := Ideal) x0 x2 x3 x4 x5
      = layerK (n := 2000) dot_S2000x128_S128x128_S2000x128_1_0_0_1_n_n shapeCasts_S1x128_S1x128 broadcasts_S1x128_S2000x128
          (truncf .bf16 (actK (layerK (n := 2000) dot_S2000x128_S128x128_S2000x128_1_0_0_1_n_n shapeCasts_S1x128_S1x128 broadcasts_S1x128_S2000x128
            (truncf .bf16 (shapeCast S2000x128 x0 shapeCasts_S2000x128_S2000x128) bitsLt_bf16_f32) (truncf .bf16 x2 bitsLt_bf16_f32) x3)) bitsLt_bf16_f32)
          (truncf .bf16 x4 bitsLt_bf16_f32) x5 := rfl

theorem upd_entry (x0 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k2_pay1 (F := Ideal) x0 x2 x3 x4 x5 (ix2 p q)
      = updRow (fun k => x0 (ix2 p k)) x2 (rowBias x3) x4 (rowBias x5) q := by
  rw [upd_payload, shapeCast_self, layerK_apply _ rowDot2000]
  unfold updRow
  refine congrArg (fun r => dense r _ _ q) (funext fun k => ?_)
  show actK (layerK (n := 2000) dot_S2000x128_S128x128_S2000x128_1_0_0_1_n_n shapeCasts_S1x128_S1x128 broadcasts_S1x128_S2000x128
      (truncf .bf16 x0 bitsLt_bf16_f32) (truncf .bf16 x2 bitsLt_bf16_f32) x3) (ix2 p k) = _
  rw [actK_apply, layerK_apply _ rowDot2000]
  rfl

/-- The second output: the update. -/
theorem upd_block (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    out2_7 (F := Ideal) x0 x1 x2 x3 x4 x5 (ix2 p q)
      = updRow (fun k => x0 (ix2 p k)) x2 (rowBias x3) x4 (rowBias x5) q := by
  unfold out2_7
  rw [View.canon_unit_zero hz]
  simp only [View.ld_unit_zero (S := S2000x128) hz, View.ld_unit_zero (S := S128x128) hz, View.ld_unit_zero (S := S1x128) hz]
  exact upd_entry x0 x2 x3 x4 x5 p q

/-- The first output: the features plus the update. -/
theorem res_block (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    out2_6 (F := Ideal) x0 x1 x2 x3 x4 x5 (ix2 p q)
      = x1 (ix2 p q) + updRow (fun k => x0 (ix2 p k)) x2 (rowBias x3) x4 (rowBias x5) q := by
  unfold out2_6
  rw [View.canon_unit_zero hz]
  simp only [View.ld_unit_zero (S := S2000x128) hz, View.ld_unit_zero (S := S128x128) hz, View.ld_unit_zero (S := S1x128) hz]
  show x1 (ix2 p q) + k2_pay1 (F := Ideal) x0 x2 x3 x4 x5 (ix2 p q) = _
  rw [upd_entry]

end Cert.Interaction.Blocks

end
-- ==== Proof.KRegion0.lean ====
/-
  The filter region: its output array is the filter network on every row of its distance operand.

  The grid has 80 points; point t stages rows 8000 t ... 8000 t + 7999 of the distances, the two whole weight
  matrices and the two whole 1 x 128 bias rows, and writes back rows 8000 t ... 8000 t + 7999 of the output. So
  what point t writes back is block t of the whole-array function, and the 80 blocks tile the array.
-/
import proofs.«112420_j45037027066141_1_alg».proof.Proof.Gen.KernelIdeal.Frame
import proofs.«112420_j45037027066141_1_alg».proof.Proof.KBlocks

set_option maxRecDepth 16384

noncomputable section

namespace Cert.Interaction.Region0

open Idealize.ShloMosaic Idealize.ShloMosaic.TcCoe Idealize.ShloMosaic.ValueIdx Idealize.SL.Sem
open Idealize.ShloMosaic.Pipeline (Dat Cfg Window)
open Cert.Interaction Cert.Interaction.Blocks
open Cert.KernelIdeal Cert.KernelIdeal.Gen

-- The contents of the buffers when the region is entered: a parameter.
variable (V : (c : Dev nD) → (b : Ref sig .tc) → Buf (Elt Ideal) ((c : Thread nD τ).loc b))

/-- The block index of every window at every point, decided over the grid. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the distance block at point t is row 8000 t + p of the distances. -/
theorem rows_block (c : Dev nD) (t : Fin cfg0.N) (p : Fin 8000) (k : Fin 128) (R : Fin 640000)
    (hR : R.val = t.val * 8000 + p.val) :
    (iblk0 V c 0 t : Vec Ideal S8000x128 .f32) (ix2 p k) = (V c main_arg1 : S640000x128.Idx → EReal) (ix2 R k) := by
  obtain ⟨e0, e1, -⟩ := idx t
  unfold iblk0
  rw [View.read_apply]
  show V c main_arg1 _ = V c main_arg1 _
  refine congrArg (V c main_arg1) (funext fun a => Fin.ext ?_)
  match a with
  | ⟨0, _⟩ => show win0_0.index t (0 : Fin 2) * 8000 + 1 * p.val = R.val; rw [e0, hR]; omega
  | ⟨1, _⟩ => show win0_0.index t (1 : Fin 2) * 128 + 1 * k.val = k.val; rw [e1]; omega

/-- The first weight's block is the whole weight, at every point. -/
theorem w1_block (c : Dev nD) (t : Fin cfg0.N) :
    (iblk0 V c 1 t : Vec Ideal S128x128 .f32) = (V c main_arg5 : S128x128.Idx → EReal) := by
  obtain ⟨-, -, e0, e1, -⟩ := idx t
  funext y
  unfold iblk0
  rw [View.read_apply]
  show V c main_arg5 _ = V c main_arg5 _
  refine congrArg (V c main_arg5) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem b1_block (c : Dev nD) (t : Fin cfg0.N) :
    (iblk0 V c 2 t : Vec Ideal S1x128 .f32) = (V c main_v0 : S1x128.Idx → EReal) := by
  obtain ⟨-, -, -, -, e0, e1, -⟩ := idx t
  funext y
  unfold iblk0
  rw [View.read_apply]
  show V c main_v0 _ = V c main_v0 _
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem w2_block (c : Dev nD) (t : Fin cfg0.N) :
    (iblk0 V c 3 t : Vec Ideal S128x128 .f32) = (V c main_arg7 : S128x128.Idx → EReal) := by
  obtain ⟨-, -, -, -, -, -, e0, e1, -⟩ := idx t
  funext y
  unfold iblk0
  rw [View.read_apply]
  show V c main_arg7 _ = V c main_arg7 _
  refine congrArg (V c main_arg7) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem b2_block (c : Dev nD) (t : Fin cfg0.N) :
    (iblk0 V c 4 t : Vec Ideal S1x128 .f32) = (V c main_v1 : S1x128.Idx → EReal) := by
  obtain ⟨-, -, -, -, -, -, -, -, e0, e1, -⟩ := idx t
  funext y
  unfold iblk0
  rw [View.read_apply]
  show V c main_v1 _ = V c main_v1 _
  refine congrArg (V c main_v1) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The filter network depends on its five operands only. -/
theorem filterRow_congr {r r' : Fin 128 → EReal} {W1 W1' : Mat} {b1 b1' : Bias} {W2 W2' : Mat} {b2 b2' : Bias}
    (q : Fin 128) (h0 : r = r') (h1 : W1 = W1') (h2 : b1 = b1') (h3 : W2 = W2') (h4 : b2 = b2') :
    filterRow r W1 b1 W2 b2 q = filterRow r' W1' b1' W2' b2' q := by
  subst h0 h1 h2 h3 h4; rfl

/-- The whole-array function of the region's operands. -/
abbrev out (c : Dev nD) : S640000x128.Idx → EReal :=
  filterArr (n := 640000) (V c main_arg1) (V c main_arg5) (rowBias (V c main_v0)) (V c main_arg7) (rowBias (V c main_v1))

/-- Entry (p, q) of the output block at point t is entry (8000 t + p, q) of the array. -/
theorem emb_out (t : Fin cfg0.N) (p : Fin 8000) (q : Fin 128) (R : Fin 640000) (hR : R.val = t.val * 8000 + p.val) :
    ((cfg0.win 5).blk t).view.emb (ix2 p q) = (ix2 R q : S640000x128.Idx) := by
  obtain ⟨-, -, -, -, -, -, -, -, -, -, e0, e1⟩ := idx t
  funext a
  apply Fin.ext
  match a with
  | ⟨0, _⟩ => show win0_5.index t (0 : Fin 2) * 8000 + 1 * p.val = R.val; rw [e0, hR]; omega
  | ⟨1, _⟩ => show win0_5.index t (1 : Fin 2) * 128 + 1 * q.val = q.val; rw [e1]; omega

/-- What point t writes back is block t of the whole-array function. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  refine funext fun (y : S8000x128.Idx) => ?_
  obtain ⟨p, q, rfl⟩ : ∃ (p : Fin 8000) (q : Fin 128), y = ix2 p q := ⟨y 0, y 1, eq_ix2 y⟩
  have hN : cfg0.N = 80 := N_0
  have hlt : t.val * 8000 + p.val < 640000 := by have := t.isLt; have := p.isLt; omega
  rw [View.read_apply, emb_out t p q ⟨t.val * 8000 + p.val, hlt⟩ rfl]
  refine (filter_block (iblk0 V c 0 t) (iblk0 V c 1 t) (iblk0 V c 2 t) (iblk0 V c 3 t) (iblk0 V c 4 t) p q).trans ?_
  exact filterRow_congr q (funext fun k => rows_block V c t p k ⟨t.val * 8000 + p.val, hlt⟩ rfl)
    (w1_block V c t) (congrArg rowBias (b1_block V c t)) (w2_block V c t) (congrArg rowBias (b2_block V c t))

/-- An index of the array is in point t's block iff each coordinate is in the block's range. -/
theorem mem_blk (t : Fin cfg0.N) (i : S640000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v2).slice (win0_5.rect t)).set ↔ _
  rw [View.set_slice_whole, Rect.mem_set_unit]
  exact Iff.rfl

/-- THE ARRAY after the region: the filter network on every row. -/
theorem array (c : Dev nD) : (dat0 V c).arrAt 5 cfg0.N = out V c :=
  (dat0 V c).arrAt_eq_of_cover 5 (out V c) (fun t _ => flushed_eq V c t) fun i => by
    have hN : cfg0.N = 80 := N_0
    have hi0 : (i 0).val < 640000 := (i 0).isLt
    have hi1 : (i 1).val < 128 := (i 1).isLt
    refine ⟨⟨(i 0).val / 8000, by omega⟩, flush0_5 _, ?_⟩
    rw [mem_blk]
    obtain ⟨-, -, -, -, -, -, -, -, -, -, e0, e1⟩ := idx ⟨(i 0).val / 8000, by omega⟩
    intro a
    match a with
    | ⟨0, _⟩ => show win0_5.index _ (0 : Fin 2) * 8000 ≤ (i 0).val ∧ (i 0).val < win0_5.index _ (0 : Fin 2) * 8000 + 8000; rw [e0]; show (i 0).val / 8000 * 8000 ≤ (i 0).val ∧ (i 0).val < (i 0).val / 8000 * 8000 + 8000; omega
    | ⟨1, _⟩ => show win0_5.index _ (1 : Fin 2) * 128 ≤ (i 1).val ∧ (i 1).val < win0_5.index _ (1 : Fin 2) * 128 + 128; rw [e1]; omega

end Cert.Interaction.Region0

end
-- ==== Proof.KRegion1.lean ====
/-
  The projection region: its output array is the projection of every row of the atom features.

  The grid has 10 points; point t stages rows 2000 t ... 2000 t + 1999 of the features and the whole weight, and
  writes back the same rows of the output. What point t writes back is block t of the whole-array function, and the
  10 blocks tile the array.
-/
import proofs.«112420_j45037027066141_1_alg».proof.Proof.Gen.KernelIdeal.Frame
import proofs.«112420_j45037027066141_1_alg».proof.Proof.KBlocks

set_option maxRecDepth 16384

noncomputable section

namespace Cert.Interaction.Region1

open Idealize.ShloMosaic Idealize.ShloMosaic.TcCoe Idealize.ShloMosaic.ValueIdx Idealize.SL.Sem
open Idealize.ShloMosaic.Pipeline (Dat Cfg Window)
open Cert.Interaction Cert.Interaction.Blocks
open Cert.KernelIdeal Cert.KernelIdeal.Gen

-- The contents of the buffers when the region is entered: a parameter.
variable (V : (c : Dev nD) → (b : Ref sig .tc) → Buf (Elt Ideal) ((c : Thread nD τ).loc b))

/-! The block index of each window at every point, decided over the grid. -/

theorem idx0 : ∀ t : Fin cfg1.N, win1_0.index t (0 : Fin 2) = t.val ∧ win1_0.index t (1 : Fin 2) = 0 :=
  (by decide +kernel : ∀ t : Fin grid1.N, _)

theorem idx1 : ∀ t : Fin cfg1.N, win1_1.index t (0 : Fin 2) = 0 ∧ win1_1.index t (1 : Fin 2) = 0 :=
  (by decide +kernel : ∀ t : Fin grid1.N, _)

theorem idx2 : ∀ t : Fin cfg1.N, win1_2.index t (0 : Fin 2) = t.val ∧ win1_2.index t (1 : Fin 2) = 0 :=
  (by decide +kernel : ∀ t : Fin grid1.N, _)

/-- Row p of the feature block at point t is row 2000 t + p of the features. -/
theorem rows_block (c : Dev nD) (t : Fin cfg1.N) (p : Fin 2000) (k : Fin 128) (R : Fin 20000)
    (hR : R.val = t.val * 2000 + p.val) :
    (iblk1 V c 0 t : Vec Ideal S2000x128 .f32) (ix2 p k) = (V c main_arg0 : S20000x128.Idx → EReal) (ix2 R k) := by
  have e0 := (idx0 t).1
  have e1 := (idx0 t).2
  unfold iblk1
  rw [View.read_apply]
  show V c main_arg0 _ = V c main_arg0 _
  refine congrArg (V c main_arg0) (funext fun a => Fin.ext ?_)
  match a with
  | ⟨0, _⟩ => show win1_0.index t (0 : Fin 2) * 2000 + 1 * p.val = R.val; rw [e0, hR]; omega
  | ⟨1, _⟩ => show win1_0.index t (1 : Fin 2) * 128 + 1 * k.val = k.val; rw [e1]; omega

/-- The weight's block is the whole weight, at every point. -/
theorem w_block (c : Dev nD) (t : Fin cfg1.N) :
    (iblk1 V c 1 t : Vec Ideal S128x128 .f32) = (V c main_arg9 : S128x128.Idx → EReal) := by
  have e0 := (idx1 t).1
  have e1 := (idx1 t).2
  funext y
  unfold iblk1
  rw [View.read_apply]
  show V c main_arg9 _ = V c main_arg9 _
  refine congrArg (V c main_arg9) (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The projection depends on its two operands only. -/
theorem projRow_congr {r r' : Fin 128 → EReal} {W W' : Mat} (q : Fin 128) (h0 : r = r') (h1 : W = W') :
    projRow r W q = projRow r' W' q := by
  subst h0 h1; rfl

/-- The whole-array function of the region's operands. -/
abbrev out (c : Dev nD) : S20000x128.Idx → EReal :=
  projArr (n := 20000) (V c main_arg0) (V c main_arg9)

/-- Entry (p, q) of output window 2's block at point t is entry (2000 t + p, q) of its array. -/
theorem emb_out (t : Fin cfg1.N) (p : Fin 2000) (q : Fin 128) (R : Fin 20000) (hR : R.val = t.val * 2000 + p.val) :
    ((cfg1.win 2).blk t).view.emb (ix2 p q) = (ix2 R q : S20000x128.Idx) := by
  have e0 := (idx2 t).1
  have e1 := (idx2 t).2
  funext a
  apply Fin.ext
  match a with
  | ⟨0, _⟩ => show win1_2.index t (0 : Fin 2) * 2000 + 1 * p.val = R.val; rw [e0, hR]; omega
  | ⟨1, _⟩ => show win1_2.index t (1 : Fin 2) * 128 + 1 * q.val = q.val; rw [e1]; omega

/-- What point t writes back is block t of the whole-array function. -/
theorem flushed_eq (c : Dev nD) (t : Fin cfg1.N) :
    (dat1 V c).flushed 2 t = ((cfg1.win 2).blk t).view.read (Elt Ideal) (out V c) := by
  show (cfg1.win 2).cut (grid1.coords t) ((dat1 V c).after 2 t) = _
  rw [after1_2]
  refine funext fun (y : S2000x128.Idx) => ?_
  obtain ⟨p, q, rfl⟩ : ∃ (p : Fin 2000) (q : Fin 128), y = ix2 p q := ⟨y 0, y 1, eq_ix2 y⟩
  have hN : cfg1.N = 10 := N_1
  have hlt : t.val * 2000 + p.val < 20000 := by have := t.isLt; have := p.isLt; omega
  rw [View.read_apply, emb_out t p q ⟨t.val * 2000 + p.val, hlt⟩ rfl]
  refine (proj_block (iblk1 V c 0 t) (iblk1 V c 1 t) p q).trans ?_
  exact projRow_congr q (funext fun k => rows_block V c t p k ⟨t.val * 2000 + p.val, hlt⟩ rfl) (w_block V c t)

/-- An index of the array is in point t's block of window 2 iff each coordinate is in the block's range. -/
theorem mem_blk (t : Fin cfg1.N) (i : S20000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v6).slice (win1_2.rect t)).set ↔ _
  rw [View.set_slice_whole, Rect.mem_set_unit]
  exact Iff.rfl

/-- THE ARRAY after the region: the projection of every row. -/
theorem array (c : Dev nD) : (dat1 V c).arrAt 2 cfg1.N = out V c :=
  (dat1 V c).arrAt_eq_of_cover 2 (out V c) (fun t _ => flushed_eq V c t) fun i => by
    have hN : cfg1.N = 10 := N_1
    have hi0 : (i 0).val < 20000 := (i 0).isLt
    have hi1 : (i 1).val < 128 := (i 1).isLt
    refine ⟨⟨(i 0).val / 2000, by omega⟩, flush1_2 _, ?_⟩
    rw [mem_blk]
    have e0 := (idx2 ⟨(i 0).val / 2000, by omega⟩).1
    have e1 := (idx2 ⟨(i 0).val / 2000, by omega⟩).2
    intro a
    match a with
    | ⟨0, _⟩ => show win1_2.index _ (0 : Fin 2) * 2000 ≤ (i 0).val ∧ (i 0).val < win1_2.index _ (0 : Fin 2) * 2000 + 2000; rw [e0]; show (i 0).val / 2000 * 2000 ≤ (i 0).val ∧ (i 0).val < (i 0).val / 2000 * 2000 + 2000; omega
    | ⟨1, _⟩ => show win1_2.index _ (1 : Fin 2) * 128 ≤ (i 1).val ∧ (i 1).val < win1_2.index _ (1 : Fin 2) * 128 + 128; rw [e1]; omega

end Cert.Interaction.Region1

end
-- ==== Proof.KRegion2.lean ====
/-
  The final region: its two output arrays are the update of every aggregated row, and the features plus that update.

  The grid has 10 points; point t stages rows 2000 t ... 2000 t + 1999 of the aggregated array and of the features,
  the two whole weights and the two whole 1 x 128 bias rows, and writes back the same rows of both outputs. What
  point t writes back is block t of each whole-array function, and the 10 blocks tile each array.
-/
import proofs.«112420_j45037027066141_1_alg».proof.Proof.Gen.KernelIdeal.Frame
import proofs.«112420_j45037027066141_1_alg».proof.Proof.KBlocks

set_option maxRecDepth 16384

noncomputable section

namespace Cert.Interaction.Region2

open Idealize.ShloMosaic Idealize.ShloMosaic.TcCoe Idealize.ShloMosaic.ValueIdx Idealize.SL.Sem
open Idealize.ShloMosaic.Pipeline (Dat Cfg Window)
open Cert.Interaction Cert.Interaction.Blocks
open Cert.KernelIdeal Cert.KernelIdeal.Gen

-- The contents of the buffers when the region is entered: a parameter.
variable (V : (c : Dev nD) → (b : Ref sig .tc) → Buf (Elt Ideal) ((c : Thread nD τ).loc b))

/-! The block index of each window at every point, decided over the grid. -/

theorem idx0 : ∀ t : Fin cfg2.N, win2_0.index t (0 : Fin 2) = t.val ∧ win2_0.index t (1 : Fin 2) = 0 :=
  (by decide +kernel : ∀ t : Fin grid2.N, _)

theorem idx1 : ∀ t : Fin cfg2.N, win2_1.index t (0 : Fin 2) = t.val ∧ win2_1.index t (1 : Fin 2) = 0 :=
  (by decide +kernel : ∀ t : Fin grid2.N, _)

theorem idx2 : ∀ t : Fin cfg2.N, win2_2.index t (0 : Fin 2) = 0 ∧ win2_2.index t (1 : Fin 2) = 0 :=
  (by decide +kernel : ∀ t : Fin grid2.N, _)

theorem idx3 : ∀ t : Fin cfg2.N, win2_3.index t (0 : Fin 2) = 0 ∧ win2_3.index t (1 : Fin 2) = 0 :=
  (by decide +kernel : ∀ t : Fin grid2.N, _)

theorem idx4 : ∀ t : Fin cfg2.N, win2_4.index t (0 : Fin 2) = 0 ∧ win2_4.index t (1 : Fin 2) = 0 :=
  (by decide +kernel : ∀ t : Fin grid2.N, _)

theorem idx5 : ∀ t : Fin cfg2.N, win2_5.index t (0 : Fin 2) = 0 ∧ win2_5.index t (1 : Fin 2) = 0 :=
  (by decide +kernel : ∀ t : Fin grid2.N, _)

theorem idx6 : ∀ t : Fin cfg2.N, win2_6.index t (0 : Fin 2) = t.val ∧ win2_6.index t (1 : Fin 2) = 0 :=
  (by decide +kernel : ∀ t : Fin grid2.N, _)

theorem idx7 : ∀ t : Fin cfg2.N, win2_7.index t (0 : Fin 2) = t.val ∧ win2_7.index t (1 : Fin 2) = 0 :=
  (by decide +kernel : ∀ t : Fin grid2.N, _)

/-- Row p of the aggregate block at point t is row 2000 t + p of the aggregated array. -/
theorem agg_block (c : Dev nD) (t : Fin cfg2.N) (p : Fin 2000) (k : Fin 128) (R : Fin 20000)
    (hR : R.val = t.val * 2000 + p.val) :
    (iblk2 V c 0 t : Vec Ideal S2000x128 .f32) (ix2 p k) = (V c main_v17 : S20000x128.Idx → EReal) (ix2 R k) := by
  have e0 := (idx0 t).1
  have e1 := (idx0 t).2
  unfold iblk2
  rw [View.read_apply]
  show V c main_v17 _ = V c main_v17 _
  refine congrArg (V c main_v17) (funext fun a => Fin.ext ?_)
  match a with
  | ⟨0, _⟩ => show win2_0.index t (0 : Fin 2) * 2000 + 1 * p.val = R.val; rw [e0, hR]; omega
  | ⟨1, _⟩ => show win2_0.index t (1 : Fin 2) * 128 + 1 * k.val = k.val; rw [e1]; omega

/-- Row p of the feature block at point t is row 2000 t + p of the features. -/
theorem x_block (c : Dev nD) (t : Fin cfg2.N) (p : Fin 2000) (k : Fin 128) (R : Fin 20000)
    (hR : R.val = t.val * 2000 + p.val) :
    (iblk2 V c 1 t : Vec Ideal S2000x128 .f32) (ix2 p k) = (V c main_arg0 : S20000x128.Idx → EReal) (ix2 R k) := by
  have e0 := (idx1 t).1
  have e1 := (idx1 t).2
  unfold iblk2
  rw [View.read_apply]
  show V c main_arg0 _ = V c main_arg0 _
  refine congrArg (V c main_arg0) (funext fun a => Fin.ext ?_)
  match a with
  | ⟨0, _⟩ => show win2_1.index t (0 : Fin 2) * 2000 + 1 * p.val = R.val; rw [e0, hR]; omega
  | ⟨1, _⟩ => show win2_1.index t (1 : Fin 2) * 128 + 1 * k.val = k.val; rw [e1]; omega

/-- Each weight's and each bias row's block is the whole operand, at every point. -/
theorem wo_block (c : Dev nD) (t : Fin cfg2.N) :
    (iblk2 V c 2 t : Vec Ideal S128x128 .f32) = (V c main_arg10 : S128x128.Idx → EReal) := by
  have e0 := (idx2 t).1
  have e1 := (idx2 t).2
  funext y
  unfold iblk2
  rw [View.read_apply]
  show V c main_arg10 _ = V c main_arg10 _
  refine congrArg (V c main_arg10) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem bo_block (c : Dev nD) (t : Fin cfg2.N) :
    (iblk2 V c 3 t : Vec Ideal S1x128 .f32) = (V c main_v18 : S1x128.Idx → EReal) := by
  have e0 := (idx3 t).1
  have e1 := (idx3 t).2
  funext y
  unfold iblk2
  rw [View.read_apply]
  show V c main_v18 _ = V c main_v18 _
  refine congrArg (V c main_v18) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

theorem wd_block (c : Dev nD) (t : Fin cfg2.N) :
    (iblk2 V c 4 t : Vec Ideal S128x128 .f32) = (V c main_arg12 : S128x128.Idx → EReal) := by
  have e0 := (idx4 t).1
  have e1 := (idx4 t).2
  funext y
  unfold iblk2
  rw [View.read_apply]
  show V c main_arg12 _ = V c main_arg12 _
  refine congrArg (V c main_arg12) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

theorem bd_block (c : Dev nD) (t : Fin cfg2.N) :
    (iblk2 V c 5 t : Vec Ideal S1x128 .f32) = (V c main_v19 : S1x128.Idx → EReal) := by
  have e0 := (idx5 t).1
  have e1 := (idx5 t).2
  funext y
  unfold iblk2
  rw [View.read_apply]
  show V c main_v19 _ = V c main_v19 _
  refine congrArg (V c main_v19) (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The update depends on its five operands only. -/
theorem updRow_congr {r r' : Fin 128 → EReal} {W1 W1' : Mat} {b1 b1' : Bias} {W2 W2' : Mat} {b2 b2' : Bias}
    (q : Fin 128) (h0 : r = r') (h1 : W1 = W1') (h2 : b1 = b1') (h3 : W2 = W2') (h4 : b2 = b2') :
    updRow r W1 b1 W2 b2 q = updRow r' W1' b1' W2' b2' q := by
  subst h0 h1 h2 h3 h4; rfl

/-- The whole-array function of the second output: the update. -/
abbrev outV (c : Dev nD) : S20000x128.Idx → EReal :=
  updArr (n := 20000) (V c main_v17) (V c main_arg10) (rowBias (V c main_v18)) (V c main_arg12) (rowBias (V c main_v19))

/-- The whole-array function of the first output: the features plus the update. -/
abbrev outY (c : Dev nD) : S20000x128.Idx → EReal :=
  resArr (n := 20000) (V c main_arg0) (V c main_v17) (V c main_arg10) (rowBias (V c main_v18)) (V c main_arg12) (rowBias (V c main_v19))

/-- Entry (p, q) of output window 6's block at point t is entry (2000 t + p, q) of its array. -/
theorem emb_y (t : Fin cfg2.N) (p : Fin 2000) (q : Fin 128) (R : Fin 20000) (hR : R.val = t.val * 2000 + p.val) :
    ((cfg2.win 6).blk t).view.emb (ix2 p q) = (ix2 R q : S20000x128.Idx) := by
  have e0 := (idx6 t).1
  have e1 := (idx6 t).2
  funext a
  apply Fin.ext
  match a with
  | ⟨0, _⟩ => show win2_6.index t (0 : Fin 2) * 2000 + 1 * p.val = R.val; rw [e0, hR]; omega
  | ⟨1, _⟩ => show win2_6.index t (1 : Fin 2) * 128 + 1 * q.val = q.val; rw [e1]; omega

/-- Entry (p, q) of output window 7's block at point t is entry (2000 t + p, q) of its array. -/
theorem emb_v (t : Fin cfg2.N) (p : Fin 2000) (q : Fin 128) (R : Fin 20000) (hR : R.val = t.val * 2000 + p.val) :
    ((cfg2.win 7).blk t).view.emb (ix2 p q) = (ix2 R q : S20000x128.Idx) := by
  have e0 := (idx7 t).1
  have e1 := (idx7 t).2
  funext a
  apply Fin.ext
  match a with
  | ⟨0, _⟩ => show win2_7.index t (0 : Fin 2) * 2000 + 1 * p.val = R.val; rw [e0, hR]; omega
  | ⟨1, _⟩ => show win2_7.index t (1 : Fin 2) * 128 + 1 * q.val = q.val; rw [e1]; omega

/-- The update row of point t's block is the update row of the array. -/
theorem upd_rows (c : Dev nD) (t : Fin cfg2.N) (p : Fin 2000) (q : Fin 128) (R : Fin 20000) (hR : R.val = t.val * 2000 + p.val) :
    updRow (fun k => iblk2 V c 0 t (ix2 p k)) (iblk2 V c 2 t) (rowBias (iblk2 V c 3 t)) (iblk2 V c 4 t) (rowBias (iblk2 V c 5 t)) q
      = updRow (fun k => (V c main_v17 : S20000x128.Idx → EReal) (ix2 R k)) (V c main_arg10) (rowBias (V c main_v18)) (V c main_arg12) (rowBias (V c main_v19)) q :=
  updRow_congr q (funext fun k => agg_block V c t p k R hR)
    (wo_block V c t) (congrArg rowBias (bo_block V c t)) (wd_block V c t) (congrArg rowBias (bd_block V c t))

/-- What point t writes back to the second output is block t of the update. -/
theorem flushed_v (c : Dev nD) (t : Fin cfg2.N) :
    (dat2 V c).flushed 7 t = ((cfg2.win 7).blk t).view.read (Elt Ideal) (outV V c) := by
  show (cfg2.win 7).cut (grid2.coords t) ((dat2 V c).after 7 t) = _
  rw [after2_7]
  refine funext fun (y : S2000x128.Idx) => ?_
  obtain ⟨p, q, rfl⟩ : ∃ (p : Fin 2000) (q : Fin 128), y = ix2 p q := ⟨y 0, y 1, eq_ix2 y⟩
  have hN : cfg2.N = 10 := N_2
  have hlt : t.val * 2000 + p.val < 20000 := by have := t.isLt; have := p.isLt; omega
  rw [View.read_apply, emb_v t p q ⟨t.val * 2000 + p.val, hlt⟩ rfl]
  refine (upd_block (iblk2 V c 0 t) (iblk2 V c 1 t) (iblk2 V c 2 t) (iblk2 V c 3 t) (iblk2 V c 4 t) (iblk2 V c 5 t) p q).trans ?_
  exact upd_rows V c t p q ⟨t.val * 2000 + p.val, hlt⟩ rfl

/-- What point t writes back to the first output is block t of the features plus the update. -/
theorem flushed_y (c : Dev nD) (t : Fin cfg2.N) :
    (dat2 V c).flushed 6 t = ((cfg2.win 6).blk t).view.read (Elt Ideal) (outY V c) := by
  show (cfg2.win 6).cut (grid2.coords t) ((dat2 V c).after 6 t) = _
  rw [after2_6]
  refine funext fun (y : S2000x128.Idx) => ?_
  obtain ⟨p, q, rfl⟩ : ∃ (p : Fin 2000) (q : Fin 128), y = ix2 p q := ⟨y 0, y 1, eq_ix2 y⟩
  have hN : cfg2.N = 10 := N_2
  have hlt : t.val * 2000 + p.val < 20000 := by have := t.isLt; have := p.isLt; omega
  rw [View.read_apply, emb_y t p q ⟨t.val * 2000 + p.val, hlt⟩ rfl]
  refine (res_block (iblk2 V c 0 t) (iblk2 V c 1 t) (iblk2 V c 2 t) (iblk2 V c 3 t) (iblk2 V c 4 t) (iblk2 V c 5 t) p q).trans ?_
  exact congrArg₂ (fun a b : EReal => a + b) (x_block V c t p q ⟨t.val * 2000 + p.val, hlt⟩ rfl)
    (upd_rows V c t p q ⟨t.val * 2000 + p.val, hlt⟩ rfl)

/-- An index of the array is in point t's block of window 6 iff each coordinate is in the block's range. -/
theorem mem_blk_y (t : Fin cfg2.N) (i : S20000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v20_0).slice (win2_6.rect t)).set ↔ _
  rw [View.set_slice_whole, Rect.mem_set_unit]
  exact Iff.rfl

/-- An index of the array is in point t's block of window 7 iff each coordinate is in the block's range. -/
theorem mem_blk_v (t : Fin cfg2.N) (i : S20000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v20_1).slice (win2_7.rect t)).set ↔ _
  rw [View.set_slice_whole, Rect.mem_set_unit]
  exact Iff.rfl

/-- THE FIRST OUTPUT after the region: the features plus the update, on every row. -/
theorem array_y (c : Dev nD) : (dat2 V c).arrAt 6 cfg2.N = outY V c :=
  (dat2 V c).arrAt_eq_of_cover 6 (outY V c) (fun t _ => flushed_y V c t) fun i => by
    have hN : cfg2.N = 10 := N_2
    have hi0 : (i 0).val < 20000 := (i 0).isLt
    have hi1 : (i 1).val < 128 := (i 1).isLt
    refine ⟨⟨(i 0).val / 2000, by omega⟩, flush2_6 _, ?_⟩
    rw [mem_blk_y]
    have e0 := (idx6 ⟨(i 0).val / 2000, by omega⟩).1
    have e1 := (idx6 ⟨(i 0).val / 2000, by omega⟩).2
    intro a
    match a with
    | ⟨0, _⟩ => show win2_6.index _ (0 : Fin 2) * 2000 ≤ (i 0).val ∧ (i 0).val < win2_6.index _ (0 : Fin 2) * 2000 + 2000; rw [e0]; show (i 0).val / 2000 * 2000 ≤ (i 0).val ∧ (i 0).val < (i 0).val / 2000 * 2000 + 2000; omega
    | ⟨1, _⟩ => show win2_6.index _ (1 : Fin 2) * 128 ≤ (i 1).val ∧ (i 1).val < win2_6.index _ (1 : Fin 2) * 128 + 128; rw [e1]; omega

/-- THE SECOND OUTPUT after the region: the update, on every row. -/
theorem array_v (c : Dev nD) : (dat2 V c).arrAt 7 cfg2.N = outV V c :=
  (dat2 V c).arrAt_eq_of_cover 7 (outV V c) (fun t _ => flushed_v V c t) fun i => by
    have hN : cfg2.N = 10 := N_2
    have hi0 : (i 0).val < 20000 := (i 0).isLt
    have hi1 : (i 1).val < 128 := (i 1).isLt
    refine ⟨⟨(i 0).val / 2000, by omega⟩, flush2_7 _, ?_⟩
    rw [mem_blk_v]
    have e0 := (idx7 ⟨(i 0).val / 2000, by omega⟩).1
    have e1 := (idx7 ⟨(i 0).val / 2000, by omega⟩).2
    intro a
    match a with
    | ⟨0, _⟩ => show win2_7.index _ (0 : Fin 2) * 2000 ≤ (i 0).val ∧ (i 0).val < win2_7.index _ (0 : Fin 2) * 2000 + 2000; rw [e0]; show (i 0).val / 2000 * 2000 ≤ (i 0).val ∧ (i 0).val < (i 0).val / 2000 * 2000 + 2000; omega
    | ⟨1, _⟩ => show win2_7.index _ (1 : Fin 2) * 128 ≤ (i 1).val ∧ (i 1).val < win2_7.index _ (1 : Fin 2) * 128 + 128; rw [e1]; omega

end Cert.Interaction.Region2

end
-- ==== Proof.RefStages.lean ====
/-
  The reference's dense stages are the spec's row functions.

  The reference computes each dense stage on the whole array with a dot_general, a bias broadcast along the rows and
  the shifted softplus spelt with a negation; read at entry (R, q) through the generated stage lemmas, each is the
  spec's dense / ssp of row R. Chained: the filter stage is filterArr of the distances, the projection is projArr of
  the features, and the two results are updArr and resArr of the aggregated array, whatever that array is.
-/
import proofs.«112420_j45037027066141_1_alg».proof.Proof.Gen.ReferenceIdeal.Read
import proofs.«112420_j45037027066141_1_alg».proof.Proof.Spec

noncomputable section

namespace Cert.Interaction.Ref

open Idealize.ShloMosaic Idealize.ShloMosaic.ValueIdx Cert.Interaction
open Cert.ReferenceIdeal Cert.ReferenceIdeal.Read

/-- The reference's softplus on one entry z, with the three broadcast zeros and the broadcast word of log 2 named:
    once they are those words, it is the spec's ssp. -/
theorem ssp_of (z z0 z2 z5 zc : EReal) (h0 : z0 = Ideal.ofBits .f32 0x00000000#32) (h2 : z2 = Ideal.ofBits .f32 0x00000000#32)
    (h5 : z5 = Ideal.ofBits .f32 0x00000000#32) (hc : zc = Ideal.ofBits .f32 0x3F317218#32) :
    FloatOps.subf (F := Ideal) (φ := .f32)
      (Scalar.select (FloatOps.cmpf (F := Ideal) (φ := .f32) .une (FloatOps.subf (F := Ideal) (φ := .f32) z z2) (FloatOps.subf (F := Ideal) (φ := .f32) z z2))
        (FloatOps.addf (F := Ideal) (φ := .f32) z z5)
        (FloatOps.addf (F := Ideal) (φ := .f32) (FloatOps.maximumf (F := Ideal) (φ := .f32) z z0)
          (FloatOps.hostUnary (F := Ideal) (φ := .f32) .log1p (FloatOps.hostUnary (F := Ideal) (φ := .f32) .exp
            (FloatOps.hostNegf (F := Ideal) (φ := .f32) (FloatOps.hostAbsf (F := Ideal) (φ := .f32) (FloatOps.subf (F := Ideal) (φ := .f32) z z2)))))))
      zc = ssp z := by
  subst h0 h2 h5 hc
  rfl

/-! ## The filter network -/

/-- First layer, before the activation: the dense of row R of the distances. -/
theorem lin0 (x1 : (⟨S640000x128, .f32⟩ : BufTy).Contents (Elt Ideal)) (x5 : (⟨S128x128, .f32⟩ : BufTy).Contents (Elt Ideal)) (x6 : (⟨S128, .f32⟩ : BufTy).Contents (Elt Ideal)) (R : Fin 640000) (q : Fin 128) :
    val_main_v3 (F := Ideal) x1 x5 x6 (ix2 R q) = dense (fun k => x1 (ix2 R k)) x5 x6 q := by
  rw [val_main_v3_apply, val_main_v0_apply, val_main_v2_apply, val_main_v1_apply]
  unfold dense
  have el : ∀ k, lidx_main_v0 (ix2 R q) k = ix2 R k := fun k => funext fun a => by
    match a with
    | ⟨0, _⟩ => rfl
    | ⟨1, _⟩ => rfl
  have er : ∀ k, ridx_main_v0 (ix2 R q) k = ix2 k q := fun k => funext fun a => by
    match a with
    | ⟨0, _⟩ => rfl
    | ⟨1, _⟩ => rfl
  have eb : idx_main_v1 (idx_main_v2 (ix2 R q)) = ix1 q := funext fun a => by
    match a with
    | ⟨0, _⟩ => rfl
  rw [eb]
  refine congrArg (fun s => s + x6 (ix1 q)) (Finset.sum_congr rfl fun k _ => ?_)
  rw [el k, er k]

/-- The first activation. -/
theorem act0 (x1 : (⟨S640000x128, .f32⟩ : BufTy).Contents (Elt Ideal)) (x5 : (⟨S128x128, .f32⟩ : BufTy).Contents (Elt Ideal)) (x6 : (⟨S128, .f32⟩ : BufTy).Contents (Elt Ideal)) (j : S640000x128.Idx) :
    val_main_v6 (F := Ideal) x1 x5 x6 j = ssp (val_main_v3 (F := Ideal) x1 x5 x6 j) := by
  simp only [val_main_v6_apply, val_main_v5_apply, val_main_cst_apply, val_main_v4_apply]
  simp only [val_main_call0_v11_apply, val_main_call0_v10_apply, val_main_call0_v9_apply, val_main_call0_v8_apply, val_main_call0_v7_apply, val_main_call0_v6_apply, val_main_call0_v5_apply, val_main_call0_v4_apply, val_main_call0_v3_apply, val_main_call0_v2_apply, val_main_call0_v1_apply, val_main_call0_v0_apply, val_main_call0_cst_apply]
  rfl

/-- Second layer, before the activation. -/
theorem lin1 (x1 : (⟨S640000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (R : Fin 640000) (q : Fin 128) :
    val_main_v10 (F := Ideal) x1 x5 x6 x7 x8 (ix2 R q)
      = dense (fun k => val_main_v6 (F := Ideal) x1 x5 x6 (ix2 R k)) x7 x8 q := by
  rw [val_main_v10_apply, val_main_v7_apply, val_main_v9_apply, val_main_v8_apply]
  unfold dense
  have el : ∀ k, lidx_main_v7 (ix2 R q) k = ix2 R k := fun k => funext fun a => by
    match a with
    | ⟨0, _⟩ => rfl
    | ⟨1, _⟩ => rfl
  have er : ∀ k, ridx_main_v7 (ix2 R q) k = ix2 k q := fun k => funext fun a => by
    match a with
    | ⟨0, _⟩ => rfl
    | ⟨1, _⟩ => rfl
  have eb : idx_main_v8 (idx_main_v9 (ix2 R q)) = ix1 q := funext fun a => by
    match a with
    | ⟨0, _⟩ => rfl
  rw [eb]
  refine congrArg (fun s => s + x8 (ix1 q)) (Finset.sum_congr rfl fun k _ => ?_)
  rw [el k, er k]

/-- The second activation. -/
theorem act1 (x1 : (⟨S640000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (j : S640000x128.Idx) :
    val_main_v13 (F := Ideal) x1 x5 x6 x7 x8 j = ssp (val_main_v10 (F := Ideal) x1 x5 x6 x7 x8 j) := by
  simp only [val_main_v13_apply, val_main_v12_apply, val_main_cst_0_apply, val_main_v11_apply]
  simp only [val_main_call1_v11_apply, val_main_call1_v10_apply, val_main_call1_v9_apply, val_main_call1_v8_apply, val_main_call1_v7_apply, val_main_call1_v6_apply, val_main_call1_v5_apply, val_main_call1_v4_apply, val_main_call1_v3_apply, val_main_call1_v2_apply, val_main_call1_v1_apply, val_main_call1_v0_apply, val_main_call1_cst_apply]
  rfl

/-- The filter stage is the filter network on every row of the distances. -/
theorem filter_stage (x1 : (⟨S640000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v13 (F := Ideal) x1 x5 x6 x7 x8 = filterArr (n := 640000) x1 x5 x6 x7 x8 := by
  funext j
  obtain ⟨R, q, rfl⟩ : ∃ (R : Fin 640000) (q : Fin 128), j = ix2 R q := ⟨j 0, j 1, eq_ix2 j⟩
  rw [act1, lin1]
  show _ = filterRow (fun k => x1 (ix2 R k)) x5 x6 x7 x8 q
  unfold filterRow
  refine congrArg ssp (congrArg (fun r => dense r x7 x8 q) (funext fun k => ?_))
  rw [act0, lin0]

/-! ## The projection -/

theorem proj_stage (x0 : (⟨S20000x128, .f32⟩ : BufTy).Contents (Elt Ideal)) (x9 : (⟨S128x128, .f32⟩ : BufTy).Contents (Elt Ideal)) :
    val_main_v17 (F := Ideal) x0 x9 = projArr (n := 20000) x0 x9 := by
  funext j
  obtain ⟨R, q, rfl⟩ : ∃ (R : Fin 20000) (q : Fin 128), j = ix2 R q := ⟨j 0, j 1, eq_ix2 j⟩
  rw [val_main_v17_apply]
  show _ = projRow (fun k => x0 (ix2 R k)) x9 q
  unfold projRow
  have el : ∀ k, lidx_main_v17 (ix2 R q) k = ix2 R k := fun k => funext fun a => by
    match a with
    | ⟨0, _⟩ => rfl
    | ⟨1, _⟩ => rfl
  have er : ∀ k, ridx_main_v17 (ix2 R q) k = ix2 k q := fun k => funext fun a => by
    match a with
    | ⟨0, _⟩ => rfl
    | ⟨1, _⟩ => rfl
  refine Finset.sum_congr rfl fun k _ => ?_
  rw [el k, er k]

/-! ## The update and the residual, over the aggregated array -/

section Final

variable (x0 : (⟨S20000x128, .f32⟩ : BufTy).Contents (Elt Ideal)) (x1 : (⟨S640000x128, .f32⟩ : BufTy).Contents (Elt Ideal)) (x2 x3 x4 : (⟨S640000, .i32⟩ : BufTy).Contents (Elt Ideal))
  (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal))
  (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))

/-- The aggregated array, as the reference computes it. -/
abbrev agg : (⟨S20000x128, .f32⟩ : BufTy).Contents (Elt Ideal) := val_main_v28 (F := Ideal) x0 x1 x2 x3 x4 x5 x6 x7 x8 x9

theorem lin2 (R : Fin 20000) (q : Fin 128) :
    val_main_v32 (F := Ideal) x0 x1 x2 x3 x4 x5 x6 x7 x8 x9 x10 x11 (ix2 R q)
      = dense (fun k => agg x0 x1 x2 x3 x4 x5 x6 x7 x8 x9 (ix2 R k)) x10 x11 q := by
  rw [val_main_v32_apply, val_main_v29_apply, val_main_v31_apply, val_main_v30_apply]
  unfold dense
  have el : ∀ k, lidx_main_v29 (ix2 R q) k = ix2 R k := fun k => funext fun a => by
    match a with
    | ⟨0, _⟩ => rfl
    | ⟨1, _⟩ => rfl
  have er : ∀ k, ridx_main_v29 (ix2 R q) k = ix2 k q := fun k => funext fun a => by
    match a with
    | ⟨0, _⟩ => rfl
    | ⟨1, _⟩ => rfl
  have eb : idx_main_v30 (idx_main_v31 (ix2 R q)) = ix1 q := funext fun a => by
    match a with
    | ⟨0, _⟩ => rfl
  rw [eb]
  refine congrArg (fun s => s + x11 (ix1 q)) (Finset.sum_congr rfl fun k _ => ?_)
  rw [el k, er k]

theorem act2 (j : S20000x128.Idx) :
    val_main_v35 (F := Ideal) x0 x1 x2 x3 x4 x5 x6 x7 x8 x9 x10 x11 j
      = ssp (val_main_v32 (F := Ideal) x0 x1 x2 x3 x4 x5 x6 x7 x8 x9 x10 x11 j) := by
  have h0 : val_main_call2_v0 (F := Ideal) j = Ideal.ofBits .f32 0x00000000#32 := by
    rw [val_main_call2_v0_apply, val_main_call2_cst_apply]; rfl
  have h2 : val_main_call2_v2 (F := Ideal) j = Ideal.ofBits .f32 0x00000000#32 := by
    rw [val_main_call2_v2_apply, val_main_call2_cst_apply]; rfl
  have h5 : val_main_call2_v5 (F := Ideal) j = Ideal.ofBits .f32 0x00000000#32 := by
    rw [val_main_call2_v5_apply, val_main_call2_cst_apply]; rfl
  have hc : val_main_v34 (F := Ideal) j = Ideal.ofBits .f32 0x3F317218#32 := by
    rw [val_main_v34_apply, val_main_cst_4_apply]; rfl
  exact ssp_of (val_main_v32 (F := Ideal) x0 x1 x2 x3 x4 x5 x6 x7 x8 x9 x10 x11 j) (val_main_call2_v0 (F := Ideal) j)
    (val_main_call2_v2 (F := Ideal) j) (val_main_call2_v5 (F := Ideal) j) (val_main_v34 (F := Ideal) j) h0 h2 h5 hc

theorem upd_entry (R : Fin 20000) (q : Fin 128) :
    val_main_v39 (F := Ideal) x0 x1 x2 x3 x4 x5 x6 x7 x8 x9 x10 x11 x12 x13 (ix2 R q)
      = updRow (fun k => agg x0 x1 x2 x3 x4 x5 x6 x7 x8 x9 (ix2 R k)) x10 x11 x12 x13 q := by
  rw [val_main_v39_apply, val_main_v36_apply, val_main_v38_apply, val_main_v37_apply]
  unfold updRow dense
  have el : ∀ k, lidx_main_v36 (ix2 R q) k = ix2 R k := fun k => funext fun a => by
    match a with
    | ⟨0, _⟩ => rfl
    | ⟨1, _⟩ => rfl
  have er : ∀ k, ridx_main_v36 (ix2 R q) k = ix2 k q := fun k => funext fun a => by
    match a with
    | ⟨0, _⟩ => rfl
    | ⟨1, _⟩ => rfl
  have eb : idx_main_v37 (idx_main_v38 (ix2 R q)) = ix1 q := funext fun a => by
    match a with
    | ⟨0, _⟩ => rfl
  rw [eb]
  refine congrArg (fun s => s + x13 (ix1 q)) (Finset.sum_congr rfl fun k _ => ?_)
  rw [el k, er k, act2, lin2]
  rfl

/-- The second result is the update of every aggregated row. -/
theorem upd_stage :
    val_main_v39 (F := Ideal) x0 x1 x2 x3 x4 x5 x6 x7 x8 x9 x10 x11 x12 x13
      = updArr (n := 20000) (agg x0 x1 x2 x3 x4 x5 x6 x7 x8 x9) x10 x11 x12 x13 := by
  funext j
  obtain ⟨R, q, rfl⟩ : ∃ (R : Fin 20000) (q : Fin 128), j = ix2 R q := ⟨j 0, j 1, eq_ix2 j⟩
  exact upd_entry x0 x1 x2 x3 x4 x5 x6 x7 x8 x9 x10 x11 x12 x13 R q

/-- The first result is the features plus that update. -/
theorem res_stage :
    val_main_v40 (F := Ideal) x0 x1 x2 x3 x4 x5 x6 x7 x8 x9 x10 x11 x12 x13
      = resArr (n := 20000) x0 (agg x0 x1 x2 x3 x4 x5 x6 x7 x8 x9) x10 x11 x12 x13 := by
  funext j
  rw [val_main_v40_apply, upd_stage]
  rfl

end Final

end Cert.Interaction.Ref

end
-- ==== Proof.Glue.lean ====
/-
  Between the dense stages: pooling, gathering and aggregating.

  Both programs pass from the filter array w and the projected features xf to the aggregated array by the same
  three steps, written with the same operations: pool w over the segment ids (a scatter-add into zeros), gather the
  projected row of each pair's neighbour (negative indices wrapped by the number of atoms) and weight it entry by entry
  by the pooled filter, and add the weighted rows into their atoms (a second scatter-add into zeros). This module
  names that passage once, as one function of (xf, w) and the three integer arrays; it is never opened: the two
  programs meet at its two float operands.
-/
import proofs.«112420_j45037027066141_1_alg».proof.Proof.RefStages

noncomputable section

namespace Cert.Interaction

open Idealize.ShloMosaic
open Cert.ReferenceIdeal Cert.ReferenceIdeal.Read

/-- From the projected features and the filter array to the aggregated array. -/
def glue (xf : (⟨S20000x128, .f32⟩ : BufTy).Contents (Elt Ideal)) (w : (⟨S640000x128, .f32⟩ : BufTy).Contents (Elt Ideal)) (idx_j seg_i seg_j : (⟨S640000, .i32⟩ : BufTy).Contents (Elt Ideal)) : (⟨S20000x128, .f32⟩ : BufTy).Contents (Elt Ideal) :=
  Host.scatterAdd (F := Ideal) (φ := .f32) scatter_S20000x128_S640000x1_S640000x128_1_0_0_1 (val_main_v26 (F := Ideal)) (val_main_v27 (F := Ideal) seg_i)
    (mulf (F := Ideal) (φ := .f32) (Host.gather (α := Ideal .f32) gather_S20000x128_S640000x1_S640000x128_1_0_n_n_0_1_1128 xf (val_main_v23 (F := Ideal) idx_j))
      (Host.scatterAdd (F := Ideal) (φ := .f32) scatter_S640000x128_S640000x1_S640000x128_1_0_0_1 (val_main_v14 (F := Ideal)) (val_main_v15 (F := Ideal) seg_j) w))

/-- The reference's aggregated array is that passage applied to its projection and filter stages. -/
theorem agg_eq (x0 : (⟨S20000x128, .f32⟩ : BufTy).Contents (Elt Ideal)) (x1 : (⟨S640000x128, .f32⟩ : BufTy).Contents (Elt Ideal)) (x2 x3 x4 : (⟨S640000, .i32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    Ref.agg x0 x1 x2 x3 x4 x5 x6 x7 x8 x9
      = glue (projArr (n := 20000) x0 x9) (filterArr (n := 640000) x1 x5 x6 x7 x8) x2 x3 x4 := by
  rw [← Ref.proj_stage, ← Ref.filter_stage]
  rfl

end Cert.Interaction

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KChain.lean ====
/-
  The idealized kernel's two result arrays as functions of its arguments.

  The buffer contents at the six boundaries of the program are read back one boundary at a time:

    * no stretch of host operations and no region writes an argument array, so at every boundary an argument's buffer
      holds what it was launched with;
    * the 1 x 128 bias rows the kernels stage are reshapes of the length-128 biases, so the bias a row stands for is
      the argument itself;
    * the filter region's output is the filter network on every row of the distances; the first host passage pools
      it over the segment ids; the projection region's output is the projection of every row of the features; the
      second host passage gathers, weights and aggregates: together they are the shared passage applied to the
      projection and the filter array;
    * the final region's outputs are the residual and the update over that aggregated array.
-/
import proofs.«112420_j45037027066141_1_alg».proof.Proof.Gen.KernelIdeal.Frame
import proofs.«112420_j45037027066141_1_alg».proof.Proof.KRegion0
import proofs.«112420_j45037027066141_1_alg».proof.Proof.KRegion1
import proofs.«112420_j45037027066141_1_alg».proof.Proof.KRegion2
import proofs.«112420_j45037027066141_1_alg».proof.Proof.Glue
import proofs.«112420_j45037027066141_1_alg».proof.Proof.LibVectorAsMatrix

set_option maxRecDepth 16384

noncomputable section

namespace Cert.Interaction.Chain

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Cert.Interaction

variable (m : (ℓ : Loc nD τ sig) → Buf (Elt Ideal) ℓ) (ρ : Dev nD → PrngReg)

/-! ## The arguments at each boundary -/

theorem W1_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results <;> rfl
theorem W1_arg1 (c : Dev nD) : W1 m ρ c (Proc.devRef .tc main_arg1) = (m ((c : Thread nD τ).loc main_arg1)) := by
  show StableHlo.after hostOps0 (W0 m ρ c) (Proc.devRef .tc main_arg1) = _
  dsimp only [hostOps0]
  after_results <;> rfl
theorem W1_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results <;> rfl
theorem W1_arg3 (c : Dev nD) : W1 m ρ c (Proc.devRef .tc main_arg3) = (m ((c : Thread nD τ).loc main_arg3)) := by
  show StableHlo.after hostOps0 (W0 m ρ c) (Proc.devRef .tc main_arg3) = _
  dsimp only [hostOps0]
  after_results <;> rfl
theorem W1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results <;> rfl
theorem W1_arg5 (c : Dev nD) : W1 m ρ c (Proc.devRef .tc main_arg5) = (m ((c : Thread nD τ).loc main_arg5)) := by
  show StableHlo.after hostOps0 (W0 m ρ c) (Proc.devRef .tc main_arg5) = _
  dsimp only [hostOps0]
  after_results <;> rfl
theorem W1_arg7 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results <;> rfl
theorem W1_arg9 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results <;> rfl
theorem W1_arg10 (c : Dev nD) : W1 m ρ c (Proc.devRef .tc main_arg10) = (m ((c : Thread nD τ).loc main_arg10)) := by
  show StableHlo.after hostOps0 (W0 m ρ c) (Proc.devRef .tc main_arg10) = _
  dsimp only [hostOps0]
  after_results <;> rfl
theorem W1_arg11 (c : Dev nD) : W1 m ρ c (Proc.devRef .tc main_arg11) = (m ((c : Thread nD τ).loc main_arg11)) := by
  show StableHlo.after hostOps0 (W0 m ρ c) (Proc.devRef .tc main_arg11) = _
  dsimp only [hostOps0]
  after_results <;> rfl
theorem W1_arg12 (c : Dev nD) : W1 m ρ c (Proc.devRef .tc main_arg12) = (m ((c : Thread nD τ).loc main_arg12)) := by
  show StableHlo.after hostOps0 (W0 m ρ c) (Proc.devRef .tc main_arg12) = _
  dsimp only [hostOps0]
  after_results <;> rfl
theorem W1_arg13 (c : Dev nD) : W1 m ρ c (Proc.devRef .tc main_arg13) = (m ((c : Thread nD τ).loc main_arg13)) := by
  show StableHlo.after hostOps0 (W0 m ρ c) (Proc.devRef .tc main_arg13) = _
  dsimp only [hostOps0]
  after_results <;> rfl
theorem W2_arg0 (c : Dev nD) : W2 m ρ c (Proc.devRef .tc main_arg0) = (m ((c : Thread nD τ).loc main_arg0)) :=
  (W2_of_ne m ρ c main_arg0 (by decide)).trans (W1_arg0 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)
theorem W2_arg13 (c : Dev nD) : W2 m ρ c (Proc.devRef .tc main_arg13) = (m ((c : Thread nD τ).loc main_arg13)) :=
  (W2_of_ne m ρ c main_arg13 (by decide)).trans (W1_arg13 m ρ c)
theorem W3_arg0 (c : Dev nD) : W3 m ρ c (Proc.devRef .tc main_arg0) = (m ((c : Thread nD τ).loc main_arg0)) := by
  show StableHlo.after hostOps1 (W2 m ρ c) (Proc.devRef .tc main_arg0) = _
  dsimp only [hostOps1]
  after_results
  exact W2_arg0 m ρ c
theorem W3_arg2 (c : Dev nD) : W3 m ρ c (Proc.devRef .tc main_arg2) = (m ((c : Thread nD τ).loc main_arg2)) := by
  show StableHlo.after hostOps1 (W2 m ρ c) (Proc.devRef .tc main_arg2) = _
  dsimp only [hostOps1]
  after_results
  exact W2_arg2 m ρ c
theorem W3_arg3 (c : Dev nD) : W3 m ρ c (Proc.devRef .tc main_arg3) = (m ((c : Thread nD τ).loc main_arg3)) := by
  show StableHlo.after hostOps1 (W2 m ρ c) (Proc.devRef .tc main_arg3) = _
  dsimp only [hostOps1]
  after_results
  exact W2_arg3 m ρ c
theorem W3_arg9 (c : Dev nD) : W3 m ρ c (Proc.devRef .tc main_arg9) = (m ((c : Thread nD τ).loc main_arg9)) := by
  show StableHlo.after hostOps1 (W2 m ρ c) (Proc.devRef .tc main_arg9) = _
  dsimp only [hostOps1]
  after_results
  exact W2_arg9 m ρ c
theorem W3_arg10 (c : Dev nD) : W3 m ρ c (Proc.devRef .tc main_arg10) = (m ((c : Thread nD τ).loc main_arg10)) := by
  show StableHlo.after hostOps1 (W2 m ρ c) (Proc.devRef .tc main_arg10) = _
  dsimp only [hostOps1]
  after_results
  exact W2_arg10 m ρ c
theorem W3_arg11 (c : Dev nD) : W3 m ρ c (Proc.devRef .tc main_arg11) = (m ((c : Thread nD τ).loc main_arg11)) := by
  show StableHlo.after hostOps1 (W2 m ρ c) (Proc.devRef .tc main_arg11) = _
  dsimp only [hostOps1]
  after_results
  exact W2_arg11 m ρ c
theorem W3_arg12 (c : Dev nD) : W3 m ρ c (Proc.devRef .tc main_arg12) = (m ((c : Thread nD τ).loc main_arg12)) := by
  show StableHlo.after hostOps1 (W2 m ρ c) (Proc.devRef .tc main_arg12) = _
  dsimp only [hostOps1]
  after_results
  exact W2_arg12 m ρ c
theorem W3_arg13 (c : Dev nD) : W3 m ρ c (Proc.devRef .tc main_arg13) = (m ((c : Thread nD τ).loc main_arg13)) := by
  show StableHlo.after hostOps1 (W2 m ρ c) (Proc.devRef .tc main_arg13) = _
  dsimp only [hostOps1]
  after_results
  exact W2_arg13 m ρ c
theorem W4_arg0 (c : Dev nD) : W4 m ρ c (Proc.devRef .tc main_arg0) = (m ((c : Thread nD τ).loc main_arg0)) :=
  (W4_arr m ρ c 0).trans (((dat1 (V3 m ρ) c).arrAt_in 0 rfl _).trans ((A_eq1 (V3 m ρ) c 0).trans (W3_arg0 m ρ c)))
theorem W4_arg2 (c : Dev nD) : W4 m ρ c (Proc.devRef .tc main_arg2) = (m ((c : Thread nD τ).loc main_arg2)) :=
  (W4_of_ne m ρ c main_arg2 (by decide)).trans (W3_arg2 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_arg12 (c : Dev nD) : W4 m ρ c (Proc.devRef .tc main_arg12) = (m ((c : Thread nD τ).loc main_arg12)) :=
  (W4_of_ne m ρ c main_arg12 (by decide)).trans (W3_arg12 m ρ c)
theorem W4_arg13 (c : Dev nD) : W4 m ρ c (Proc.devRef .tc main_arg13) = (m ((c : Thread nD τ).loc main_arg13)) :=
  (W4_of_ne m ρ c main_arg13 (by decide)).trans (W3_arg13 m ρ c)
theorem W5_arg0 (c : Dev nD) : W5 m ρ c (Proc.devRef .tc main_arg0) = (m ((c : Thread nD τ).loc main_arg0)) := by
  show StableHlo.after hostOps2 (W4 m ρ c) (Proc.devRef .tc main_arg0) = _
  dsimp only [hostOps2]
  after_results
  exact W4_arg0 m ρ c
theorem W5_arg10 (c : Dev nD) : W5 m ρ c (Proc.devRef .tc main_arg10) = (m ((c : Thread nD τ).loc main_arg10)) := by
  show StableHlo.after hostOps2 (W4 m ρ c) (Proc.devRef .tc main_arg10) = _
  dsimp only [hostOps2]
  after_results
  exact W4_arg10 m ρ c
theorem W5_arg12 (c : Dev nD) : W5 m ρ c (Proc.devRef .tc main_arg12) = (m ((c : Thread nD τ).loc main_arg12)) := by
  show StableHlo.after hostOps2 (W4 m ρ c) (Proc.devRef .tc main_arg12) = _
  dsimp only [hostOps2]
  after_results
  exact W4_arg12 m ρ c

/-! ## The bias rows -/

/-- The bias that the reshape of a length-128 vector to a 1 x 128 row stands for is the vector. -/
theorem bias_of_reshape (b : (⟨1, ![128]⟩ : Shape).Idx → EReal) (h : (⟨1, ![128]⟩ : Shape).ShapeCasts ⟨2, ![1, 128]⟩) :
    rowBias (shapeCast ⟨2, ![1, 128]⟩ b h) = b := by
  funext j
  obtain ⟨q, rfl⟩ : ∃ q : Fin 128, j = ix1 q := ⟨j 0, eq_ix1 j⟩
  exact VectorAsMatrix.row_apply b h 0 q

theorem bias1 (c : Dev nD) : rowBias (V1 m ρ c main_v0) = (m ((c : Thread nD τ).loc main_arg6)) := by
  have e : (V1 m ρ c main_v0 : S1x128.Idx → EReal) = shapeCast S1x128 (m ((c : Thread nD τ).loc main_arg6)) shapeCasts_S128_S1x128 := by
    show StableHlo.after hostOps0 (W0 m ρ c) (Proc.devRef .tc main_v0) = _
    dsimp only [hostOps0]
    after_results <;> rfl
  exact (congrArg rowBias e).trans (bias_of_reshape _ _)

theorem bias2 (c : Dev nD) : rowBias (V1 m ρ c main_v1) = (m ((c : Thread nD τ).loc main_arg8)) := by
  have e : (V1 m ρ c main_v1 : S1x128.Idx → EReal) = shapeCast S1x128 (m ((c : Thread nD τ).loc main_arg8)) shapeCasts_S128_S1x128 := by
    show StableHlo.after hostOps0 (W0 m ρ c) (Proc.devRef .tc main_v1) = _
    dsimp only [hostOps0]
    after_results <;> rfl
  exact (congrArg rowBias e).trans (bias_of_reshape _ _)

theorem biasO (c : Dev nD) : rowBias (V5 m ρ c main_v18) = (m ((c : Thread nD τ).loc main_arg11)) := by
  have e : (V5 m ρ c main_v18 : S1x128.Idx → EReal) = shapeCast S1x128 (m ((c : Thread nD τ).loc main_arg11)) shapeCasts_S128_S1x128 := by
    show StableHlo.after hostOps2 (W4 m ρ c) (Proc.devRef .tc main_v18) = _
    dsimp only [hostOps2]
    after_results
    rw [W4_arg11 m ρ c]
    rfl
  exact (congrArg rowBias e).trans (bias_of_reshape _ _)

theorem biasD (c : Dev nD) : rowBias (V5 m ρ c main_v19) = (m ((c : Thread nD τ).loc main_arg13)) := by
  have e : (V5 m ρ c main_v19 : S1x128.Idx → EReal) = shapeCast S1x128 (m ((c : Thread nD τ).loc main_arg13)) shapeCasts_S128_S1x128 := by
    show StableHlo.after hostOps2 (W4 m ρ c) (Proc.devRef .tc main_v19) = _
    dsimp only [hostOps2]
    after_results
    rw [W4_arg13 m ρ c]
    rfl
  exact (congrArg rowBias e).trans (bias_of_reshape _ _)

/-! ## The whole-array functions depend on their operands only -/

theorem filterArr_congr {n : Nat} {d d' : Rows n} {W1 W1' : Mat} {b1 b1' : Bias} {W2 W2' : Mat} {b2 b2' : Bias}
    (h0 : d = d') (h1 : W1 = W1') (h2 : b1 = b1') (h3 : W2 = W2') (h4 : b2 = b2') :
    filterArr d W1 b1 W2 b2 = filterArr d' W1' b1' W2' b2' := by
  subst h0 h1 h2 h3 h4; rfl

theorem projArr_congr {n : Nat} {x x' : Rows n} {W W' : Mat} (h0 : x = x') (h1 : W = W') :
    projArr x W = projArr x' W' := by
  subst h0 h1; rfl

theorem updArr_congr {n : Nat} {a a' : Rows n} {W1 W1' : Mat} {b1 b1' : Bias} {W2 W2' : Mat} {b2 b2' : Bias}
    (h0 : a = a') (h1 : W1 = W1') (h2 : b1 = b1') (h3 : W2 = W2') (h4 : b2 = b2') :
    updArr a W1 b1 W2 b2 = updArr a' W1' b1' W2' b2' := by
  subst h0 h1 h2 h3 h4; rfl

theorem resArr_congr {n : Nat} {x x' a a' : Rows n} {W1 W1' : Mat} {b1 b1' : Bias} {W2 W2' : Mat} {b2 b2' : Bias}
    (hx : x = x') (h0 : a = a') (h1 : W1 = W1') (h2 : b1 = b1') (h3 : W2 = W2') (h4 : b2 = b2') :
    resArr x a W1 b1 W2 b2 = resArr x' a' W1' b1' W2' b2' := by
  subst hx h0 h1 h2 h3 h4; rfl

/-! ## The arrays, boundary by boundary -/

/-- After the filter region: the filter network on every row of the distances. -/
theorem filter_array (c : Dev nD) :
    W2 m ρ c (Proc.devRef .tc main_v2) = (filterArr (n := 640000) (m ((c : Thread nD τ).loc main_arg1)) (m ((c : Thread nD τ).loc main_arg5)) (m ((c : Thread nD τ).loc main_arg6)) (m ((c : Thread nD τ).loc main_arg7)) (m ((c : Thread nD τ).loc main_arg8))) :=
  (W2_arr m ρ c 5).trans ((Region0.array (V1 m ρ) c).trans
    (filterArr_congr (W1_arg1 m ρ c) (W1_arg5 m ρ c) (bias1 m ρ c) (W1_arg7 m ρ c) (bias2 m ρ c)))

/-- After the first host passage: the filter array pooled over the segment ids. -/
theorem pooled (c : Dev nD) :
    W3 m ρ c (Proc.devRef .tc main_v5)
      = Host.scatterAdd (F := Ideal) scatter_S640000x128_S640000x1_S640000x128_1_0_0_1
          (broadcastInDim S640000x128 ![] bcast_S_S640000x128 (constant (F := Ideal) S_ .f32 0x00000000#32))
          (broadcastInDim S640000x1 ![0] bcast_S640000_S640000x1_0 (m ((c : Thread nD τ).loc main_arg4)))
          (filterArr (n := 640000) (m ((c : Thread nD τ).loc main_arg1)) (m ((c : Thread nD τ).loc main_arg5)) (m ((c : Thread nD τ).loc main_arg6)) (m ((c : Thread nD τ).loc main_arg7)) (m ((c : Thread nD τ).loc main_arg8))) := by
  show StableHlo.after hostOps1 (W2 m ρ c) (Proc.devRef .tc main_v5) = _
  dsimp only [hostOps1]
  after_results
  rw [W2_arg4 m ρ c, filter_array m ρ c]

/-- After the projection region: the projection of every row of the features. -/
theorem proj_array (c : Dev nD) :
    W4 m ρ c (Proc.devRef .tc main_v6) = (projArr (n := 20000) (m ((c : Thread nD τ).loc main_arg0)) (m ((c : Thread nD τ).loc main_arg9))) :=
  (W4_arr m ρ c 2).trans ((Region1.array (V3 m ρ) c).trans (projArr_congr (W3_arg0 m ρ c) (W3_arg9 m ρ c)))

set_option maxHeartbeats 4000000 in
/-- After the second host passage: the aggregated array is the shared passage of the projection and the filter array. -/
theorem aggregated (c : Dev nD) :
    W5 m ρ c (Proc.devRef .tc main_v17) = (glue (projArr (n := 20000) (m ((c : Thread nD τ).loc main_arg0)) (m ((c : Thread nD τ).loc main_arg9))) (filterArr (n := 640000) (m ((c : Thread nD τ).loc main_arg1)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg4))) := by
  show StableHlo.after hostOps2 (W4 m ρ c) (Proc.devRef .tc main_v17) = _
  dsimp only [hostOps2]
  after_results
  rw [W4_arg3 m ρ c, W4_arg2 m ρ c, proj_array m ρ c, (W4_of_ne m ρ c main_v5 (by decide)).trans (pooled m ρ c)]
  rfl

/-- THE FIRST RESULT: the features plus the update over the aggregated array. -/
theorem result_y (c : Dev nD) :
    W6 m ρ c (Proc.devRef .tc main_v20_0)
      = resArr (n := 20000) (m ((c : Thread nD τ).loc main_arg0)) (glue (projArr (n := 20000) (m ((c : Thread nD τ).loc main_arg0)) (m ((c : Thread nD τ).loc main_arg9))) (filterArr (n := 640000) (m ((c : Thread nD τ).loc main_arg1)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg4))) (m ((c : Thread nD τ).loc main_arg10)) (m ((c : Thread nD τ).loc main_arg11)) (m ((c : Thread nD τ).loc main_arg12)) (m ((c : Thread nD τ).loc main_arg13)) :=
  (W6_arr m ρ c 6).trans ((Region2.array_y (V5 m ρ) c).trans
    (resArr_congr (W5_arg0 m ρ c) (aggregated m ρ c) (W5_arg10 m ρ c) (biasO m ρ c) (W5_arg12 m ρ c) (biasD m ρ c)))

/-- THE SECOND RESULT: the update over the aggregated array. -/
theorem result_v (c : Dev nD) :
    W6 m ρ c (Proc.devRef .tc main_v20_1)
      = updArr (n := 20000) (glue (projArr (n := 20000) (m ((c : Thread nD τ).loc main_arg0)) (m ((c : Thread nD τ).loc main_arg9))) (filterArr (n := 640000) (m ((c : Thread nD τ).loc main_arg1)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg4))) (m ((c : Thread nD τ).loc main_arg10)) (m ((c : Thread nD τ).loc main_arg11)) (m ((c : Thread nD τ).loc main_arg12)) (m ((c : Thread nD τ).loc main_arg13)) :=
  (W6_arr m ρ c 7).trans ((Region2.array_v (V5 m ρ) c).trans
    (updArr_congr (aggregated m ρ c) (W5_arg10 m ρ c) (biasO m ρ c) (W5_arg12 m ρ c) (biasD m ρ c)))

end Cert.Interaction.Chain

end
-- ==== Proof.lean ====
/-
  The certificate: the idealized kernel and the idealized reference compute the same two arrays.

  The block is three dense stages joined by gathers and segment sums. The kernel runs each dense stage as a grid of
  row tiles (the filter network over 80 tiles of 8000 pairs; the projection and the final update over 10 tiles of 2000
  atoms), every tile against the whole weight matrices, and leaves the gather and the two segment sums to the same
  host operations the reference uses. On the extended reals a cast to half precision is the identity and a matrix
  product into a zero accumulator is the plain sum of products, and each output row of a dense stage depends on
  the same input row only, so every tile is the restriction of one whole-array function (Spec: filterArr, projArr,
  updArr, resArr) and the tiles cover the arrays. The reference's stages, read entry by entry, are the same
  whole-array functions; the host passage between the stages is one shared term that is never opened. No
  finiteness is used: the precondition is not opened.

  The three frames: the two kernels' are the generated frame certificates; the reference's is its generated run
  with the results dropped. The ideal pass rewrote nothing, so there is nothing to preserve.
-/
import proofs.«112420_j45037027066141_1_alg».proof.Defs
import proofs.«112420_j45037027066141_1_alg».proof.Proof.Gen.Kernel
import proofs.«112420_j45037027066141_1_alg».proof.Proof.Gen.Kernel.Skeleton
import proofs.«112420_j45037027066141_1_alg».proof.Proof.Gen.Kernel.Launch
import proofs.«112420_j45037027066141_1_alg».proof.Proof.Gen.Kernel.Points
import proofs.«112420_j45037027066141_1_alg».proof.Proof.Gen.Kernel.Frame
import proofs.«112420_j45037027066141_1_alg».proof.Proof.Gen.KernelIdeal
import proofs.«112420_j45037027066141_1_alg».proof.Proof.Gen.KernelIdeal.Skeleton
import proofs.«112420_j45037027066141_1_alg».proof.Proof.Gen.KernelIdeal.Launch
import proofs.«112420_j45037027066141_1_alg».proof.Proof.Gen.KernelIdeal.Points
import proofs.«112420_j45037027066141_1_alg».proof.Proof.Gen.KernelIdeal.Frame
import proofs.«112420_j45037027066141_1_alg».proof.Proof.Gen.ReferenceIdeal
import proofs.«112420_j45037027066141_1_alg».proof.Proof.Gen.ReferenceIdeal.Run
import proofs.«112420_j45037027066141_1_alg».proof.Proof.Gen.ReferenceIdeal.Read
import proofs.«112420_j45037027066141_1_alg».proof.Proof.Gen.Pre_finite_inputs
import proofs.«112420_j45037027066141_1_alg».proof.Proof.KRun
import proofs.«112420_j45037027066141_1_alg».proof.Proof.KChain
import proofs.«112420_j45037027066141_1_alg».proof.Proof.RefStages
import proofs.«112420_j45037027066141_1_alg».proof.Proof.Glue
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-! ## The reference's two results as the whole-array functions of its arguments -/

open Cert.Interaction in
/-- The first result of the reference: the residual over the shared passage of its projection and filter arrays. -/
theorem ref_y (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v40 m c
      = resArr (n := 20000) (m ((c.tc : Thread Cert.ReferenceIdeal.nD Cert.ReferenceIdeal.τ).loc Cert.ReferenceIdeal.main_arg0))
          (glue (projArr (n := 20000) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg9)))
            (filterArr (n := 640000) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)))
            (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)))
          (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  rw [Cert.ReferenceIdeal.Read.val_main_v40_eq, Ref.res_stage, agg_eq]

open Cert.Interaction in
/-- The second result of the reference: the update over the same aggregated array. -/
theorem ref_v (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v39 m c
      = updArr (n := 20000)
          (glue (projArr (n := 20000) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg9)))
            (filterArr (n := 640000) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)))
            (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)))
          (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  rw [Cert.ReferenceIdeal.Read.val_main_v39_eq, Ref.upd_stage, agg_eq]

/-! ## The two programs agree -/

/-- From memories agreeing on the arguments both programs end with the residual and the update of the same aggregated
    array: the kernel's run read boundary by boundary, the reference's run read stage by stage, the arguments'
    agreement rewritten. -/
theorem algebraic : Cert.algebraic_KernelIdeal_ReferenceIdeal := by
  intro m ρ m' ρ' _ hagree
  refine ⟨fun c => Cert.KernelIdeal.Gen.W6 m ρ c (Proc.devRef .tc Cert.KernelIdeal.main_v20_0),
    fun c => Cert.KernelIdeal.Gen.W6 m ρ c (Proc.devRef .tc Cert.KernelIdeal.main_v20_1), ?_, ?_⟩
  · exact (θ_run Cert.KernelIdeal.defs _ _).mono (fun r h c =>
      ⟨h c Cert.KernelIdeal.main_v20_0 (by decide), h c Cert.KernelIdeal.main_v20_1 (by decide),
      (h c Cert.KernelIdeal.main_arg0 (by decide)).trans (Cert.KernelIdeal.Gen.W6_main_arg0 m ρ c),
      (h c Cert.KernelIdeal.main_arg1 (by decide)).trans (Cert.KernelIdeal.Gen.W6_main_arg1 m ρ c),
      (h c Cert.KernelIdeal.main_arg2 (by decide)).trans (Cert.KernelIdeal.Gen.W6_main_arg2 m ρ c),
      (h c Cert.KernelIdeal.main_arg3 (by decide)).trans (Cert.KernelIdeal.Gen.W6_main_arg3 m ρ c),
      (h c Cert.KernelIdeal.main_arg4 (by decide)).trans (Cert.KernelIdeal.Gen.W6_main_arg4 m ρ c),
      (h c Cert.KernelIdeal.main_arg5 (by decide)).trans (Cert.KernelIdeal.Gen.W6_main_arg5 m ρ c),
      (h c Cert.KernelIdeal.main_arg6 (by decide)).trans (Cert.KernelIdeal.Gen.W6_main_arg6 m ρ c),
      (h c Cert.KernelIdeal.main_arg7 (by decide)).trans (Cert.KernelIdeal.Gen.W6_main_arg7 m ρ c),
      (h c Cert.KernelIdeal.main_arg8 (by decide)).trans (Cert.KernelIdeal.Gen.W6_main_arg8 m ρ c),
      (h c Cert.KernelIdeal.main_arg9 (by decide)).trans (Cert.KernelIdeal.Gen.W6_main_arg9 m ρ c),
      (h c Cert.KernelIdeal.main_arg10 (by decide)).trans (Cert.KernelIdeal.Gen.W6_main_arg10 m ρ c),
      (h c Cert.KernelIdeal.main_arg11 (by decide)).trans (Cert.KernelIdeal.Gen.W6_main_arg11 m ρ c),
      (h c Cert.KernelIdeal.main_arg12 (by decide)).trans (Cert.KernelIdeal.Gen.W6_main_arg12 m ρ c),
      (h c Cert.KernelIdeal.main_arg13 (by decide)).trans (Cert.KernelIdeal.Gen.W6_main_arg13 m ρ c)⟩)
      (Cert.KernelIdeal.Results.run_contents m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13⟩ := hagree c
      rw [ref_y, h0, h1, h2, h3, h4, h5, h6, h7, h8, h9, h10, h11, h12, h13]
      exact (Cert.Interaction.Chain.result_y m ρ c).symm
    · obtain ⟨h0, h1, h2, h3, h4, h5, h6, h7, h8, h9, h10, h11, h12, h13⟩ := hagree c
      rw [ref_v, h0, h1, h2, h3, h4, h5, h6, h7, h8, h9, h10, h11, h12, h13]
      exact (Cert.Interaction.Chain.result_v m ρ c).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
